-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x512 .f32) (main_arg1 : IVec S400000 32) (main_arg2 : IVec S400000 32) (main_arg3 : FVec F S512x512 .f32) (main_arg4 : FVec F S512 .f32) (main_arg5 : FVec F S512x1 .f32) (main_arg6 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg5
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg6 main_v13 main_v16
-- ==== Kernel.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x512 : Shape := ⟨2, ![400000, 512]⟩
abbrev S1x512 : Shape := ⟨2, ![1, 512]⟩
abbrev S2000x512 : Shape := ⟨2, ![2000, 512]⟩
abbrev S2000x1 : Shape := ⟨2, ![2000, 1]⟩
abbrev S1x1 : Shape := ⟨2, ![1, 1]⟩

abbrev nBuf : Space → Nat
  | .hbm => 73
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S400000, .i32⟩
  | .hbm, ⟨2, _⟩ => ⟨S400000, .i32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S_, .f32⟩
  | .hbm, ⟨8, _⟩ => ⟨S400000, .f32⟩
  | .hbm, ⟨9, _⟩ => ⟨S_, .f32⟩
  | .hbm, ⟨10, _⟩ => ⟨S50000, .f32⟩
  | .hbm, ⟨11, _⟩ => ⟨S400000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S400000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x512, .f32⟩
  | .hbm, ⟨34, _⟩ => ⟨S50000x512, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S400000x512, .f32⟩
  | .hbm, ⟨44, _⟩ => ⟨S_, .f32⟩
  | .hbm, ⟨45, _⟩ => ⟨S50000x512, .f32⟩
  | .hbm, ⟨46, _⟩ => ⟨S400000x1, .i32⟩
  | .hbm, ⟨47, _⟩ => ⟨S50000x512, .f32⟩
  | .hbm, ⟨48, _⟩ => ⟨S1x512, .f32⟩
  | .hbm, ⟨49, _⟩ => ⟨S50000x1, .f32⟩
  | .hbm, ⟨50, _⟩ => ⟨S_, .i32⟩
  | .hbm, ⟨51, _⟩ => ⟨S400000, .i32⟩
  | .hbm, ⟨52, _⟩ => ⟨S400000, .i1⟩
  | .hbm, ⟨53, _⟩ => ⟨S_, .i32⟩
  | .hbm, ⟨54, _⟩ => ⟨S400000, .i32⟩
  | .hbm, ⟨55, _⟩ => ⟨S400000, .i32⟩
  | .hbm, ⟨56, _⟩ => ⟨S400000, .i32⟩
  | .hbm, ⟨57, _⟩ => ⟨S400000x1, .i32⟩
  | .hbm, ⟨58, _⟩ => ⟨S400000x1, .f32⟩
  | .hbm, ⟨59, _⟩ => ⟨S_, .f32⟩
  | .hbm, ⟨60, _⟩ => ⟨S50000x1, .f32⟩
  | .hbm, ⟨61, _⟩ => ⟨S400000x1, .i32⟩
  | .hbm, ⟨62, _⟩ => ⟨S50000x1, .f32⟩
  | .hbm, ⟨63, _⟩ => ⟨S50000x1, .f32⟩
  | .hbm, ⟨64, _⟩ => ⟨S1x1, .f32⟩
  | .hbm, ⟨65, _⟩ => ⟨S50000x1, .f32⟩
  | .hbm, ⟨66, _⟩ => ⟨S50000x1, .f32⟩
  | .hbm, ⟨67, _⟩ => ⟨S_, .f32⟩
  | .hbm, ⟨68, _⟩ => ⟨S1, .f32⟩
  | .hbm, ⟨69, _⟩ => ⟨S1x1, .f32⟩
  | .hbm, ⟨70, _⟩ => ⟨S_, .f32⟩
  | .hbm, ⟨71, _⟩ => ⟨S1x1, .f32⟩
  | .hbm, ⟨72, _⟩ => ⟨S1x1, .f32⟩
  | .local _ .vmem, ⟨0, _⟩ => ⟨S2000x512, .f32⟩
  | .local _ .vmem, ⟨1, _⟩ => ⟨S2000x512, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S512x512, .f32⟩
  | .local _ .vmem, ⟨7, _⟩ => ⟨S1x512, .f32⟩
  | .local _ .vmem, ⟨8, _⟩ => ⟨S512x1, .f32⟩
  | .local _ .vmem, ⟨9, _⟩ => ⟨S2000x1, .f32⟩
  | .local _ .vmem, ⟨10, _⟩ => ⟨S2000x1, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_c_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_10 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  shapeCasts_S50000_S50000x1 : S50000.ShapeCasts S50000x1
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x1_S512x1_0_0 : ∀ a, (![0, 0] : Fin 2 → Nat) a + S512x1.size a ≤ S512x1.size a
  h_S512x1 : 0 < S512x1.numel
  bcast_S_S50000x1 : S_.BroadcastsInDim S50000x1 (![] : Fin 0 → Fin S50000x1.rank)
  shapeCasts_S1_S1x1 : S1.ShapeCasts S1x1
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  bcast_S1_S1x1_1 : S1.BroadcastsInDim S1x1 (![1] : Fin 1 → Fin S1x1.rank)
  bcast_S_S1x1 : S_.BroadcastsInDim S1x1 (![] : Fin 0 → Fin S1x1.rank)
  scatter_S50000_S400000x1_S400000_n_0_0_1_wf : ScatterDims.WF S50000 S400000x1 S400000 [] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S2000x512_S512x512_S2000x512_1_0_0_1_n_n_wf : DotDims.WF S2000x512 S512x512 S2000x512 [1] [0] [0] [1] [] []
  dot_S2000x512_S512x1_S2000x1_1_0_0_1_n_n_wf : DotDims.WF S2000x512 S512x1 S2000x1 [1] [0] [0] [1] [] []
  gather_S50000x1_S400000x1_S400000x1_1_0_n_n_0_1_11_wf : GatherDims.WF S50000x1 S400000x1 S400000x1 [1] [0] [] [0] [] 1 ![1, 1]
  scatter_S50000x1_S400000x1_S400000x1_1_0_0_1_wf : ScatterDims.WF S50000x1 S400000x1 S400000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S50000x1.size a
  hwx0_6 : ∀ i : grid0.Coords, EltTy.bits .f32 = 32 ∨ (Rect.block (s := S50000x1) S2000x1.size (cc0_transform_6 i) (hinb0_6 i)).WholeWords (EltTy.packing .f32)

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf
def gather_S50000x1_S400000x1_S400000x1_1_0_n_n_0_1_11 : GatherDims S50000x1 S400000x1 S400000x1 where
  offsetDims := [1]
  collapsedSliceDims := [0]
  operandBatchingDims := []
  startIndicesBatchingDims := []
  startIndexMap := [0]
  indexVectorDim := 1
  sliceSizes := ![1, 1]
  wf := gather_S50000x1_S400000x1_S400000x1_1_0_n_n_0_1_11_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf

abbrev win0_0 : Pipeline.Window sig grid0 :=
  Pipeline.Window.ofSpec (Memref.whole main_v26) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S2000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S50000 : Shape := ⟨1, ![50000]⟩
abbrev S400000x1 : Shape := ⟨2, ![400000, 1]⟩
abbrev S50000x1 : Shape := ⟨2, ![50000, 1]⟩
abbrev S400000x512 : Shape := ⟨2, ![400000, 512]⟩
abbrev S1x512 : Shape := ⟨2, ![1, 512]⟩
abbrev S1x1 : Shape := ⟨2, ![1, 1]⟩

abbrev nBuf : Space → Nat
  | .hbm => 110
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S400000, .i32⟩
  | .hbm, ⟨2, _⟩ => ⟨S400000, .i32⟩
  | .hbm, ⟨3, _⟩ => ⟨S512x512, .f32⟩
  | .hbm, ⟨4, _⟩ => ⟨S512, .f32⟩
  | .hbm, ⟨5, _⟩ => ⟨S512x1, .f32⟩
  | .hbm, ⟨6, _⟩ => ⟨S1, .f32⟩
  | .hbm, ⟨7, _⟩ => ⟨S_, .f32⟩
  | .hbm, ⟨8, _⟩ => ⟨S400000, .f32⟩
  | .hbm, ⟨9, _⟩ => ⟨S_, .f32⟩
  | .hbm, ⟨10, _⟩ => ⟨S50000, .f32⟩
  | .hbm, ⟨11, _⟩ => ⟨S400000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S400000x1, .i32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x512, .f32⟩
  | .hbm, ⟨30, _⟩ => ⟨S50000x512, .f32⟩
  | .hbm, ⟨31, _⟩ => ⟨S_, .i32⟩
  | .hbm, ⟨32, _⟩ => ⟨S400000, .i32⟩
  | .hbm, ⟨33, _⟩ => ⟨S400000, .i1⟩
  | .hbm, ⟨34, _⟩ => ⟨S_, .i32⟩
  | .hbm, ⟨35, _⟩ => ⟨S400000, .i32⟩
  | .hbm, ⟨36, _⟩ => ⟨S400000, .i32⟩
  | .hbm, ⟨37, _⟩ => ⟨S400000, .i32⟩
  | .hbm, ⟨38, _⟩ => ⟨S400000x1, .i32⟩
  | .hbm, ⟨39, _⟩ => ⟨S400000x512, .f32⟩
  | .hbm, ⟨40, _⟩ => ⟨S_, .f32⟩
  | .hbm, ⟨41, _⟩ => ⟨S50000x512, .f32⟩
  | .hbm, ⟨42, _⟩ => ⟨S400000x1, .i32⟩
  | .hbm, ⟨43, _⟩ => ⟨S50000x512, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S50000x1, .f32⟩
  | .hbm, ⟨48, _⟩ => ⟨S50000x512, .f32⟩
  | .hbm, ⟨49, _⟩ => ⟨S50000x512, .f32⟩
  | .hbm, ⟨50, _⟩ => ⟨S50000x512, .f32⟩
  | .hbm, ⟨51, _⟩ => ⟨S1x512, .f32⟩
  | .hbm, ⟨52, _⟩ => ⟨S50000x512, .f32⟩
  | .hbm, ⟨53, _⟩ => ⟨S50000x512, .f32⟩
  | .hbm, ⟨54, _⟩ => ⟨S_, .f32⟩
  | .hbm, ⟨55, _⟩ => ⟨S50000x512, .f32⟩
  | .hbm, ⟨56, _⟩ => ⟨S50000x512, .f32⟩
  | .hbm, ⟨57, _⟩ => ⟨S_, .f32⟩
  | .hbm, ⟨58, _⟩ => ⟨S400000, .f32⟩
  | .hbm, ⟨59, _⟩ => ⟨S_, .f32⟩
  | .hbm, ⟨60, _⟩ => ⟨S50000, .f32⟩
  | .hbm, ⟨61, _⟩ => ⟨S400000x1, .i32⟩
  | .hbm, ⟨62, _⟩ => ⟨S50000, .f32⟩
  | .hbm, ⟨63, _⟩ => ⟨S_, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S400000x1, .i32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S50000, .f32⟩
  | .hbm, ⟨78, _⟩ => ⟨S50000x1, .f32⟩
  | .hbm, ⟨79, _⟩ => ⟨S50000x512, .f32⟩
  | .hbm, ⟨80, _⟩ => ⟨S50000x512, .f32⟩
  | .hbm, ⟨81, _⟩ => ⟨S_, .i32⟩
  | .hbm, ⟨82, _⟩ => ⟨S400000, .i32⟩
  | .hbm, ⟨83, _⟩ => ⟨S400000, .i1⟩
  | .hbm, ⟨84, _⟩ => ⟨S_, .i32⟩
  | .hbm, ⟨85, _⟩ => ⟨S400000, .i32⟩
  | .hbm, ⟨86, _⟩ => ⟨S400000, .i32⟩
  | .hbm, ⟨87, _⟩ => ⟨S400000, .i32⟩
  | .hbm, ⟨88, _⟩ => ⟨S400000x1, .i32⟩
  | .hbm, ⟨89, _⟩ => ⟨S400000x512, .f32⟩
  | .hbm, ⟨90, _⟩ => ⟨S_, .f32⟩
  | .hbm, ⟨91, _⟩ => ⟨S50000x512, .f32⟩
  | .hbm, ⟨92, _⟩ => ⟨S400000x1, .i32⟩
  | .hbm, ⟨93, _⟩ => ⟨S50000x512, .f32⟩
  | .hbm, ⟨94, _⟩ => ⟨S_, .f32⟩
  | .hbm, ⟨95, _⟩ => ⟨S50000, .f32⟩
  | .hbm, ⟨96, _⟩ => ⟨S50000, .f32⟩
  | .hbm, ⟨97, _⟩ => ⟨S50000x1, .f32⟩
  | .hbm, ⟨98, _⟩ => ⟨S50000x512, .f32⟩
  | .hbm, ⟨99, _⟩ => ⟨S50000x512, .f32⟩
  | .hbm, ⟨100, _⟩ => ⟨S50000x1, .f32⟩
  | .hbm, ⟨101, _⟩ => ⟨S1x1, .f32⟩
  | .hbm, ⟨102, _⟩ => ⟨S50000x1, .f32⟩
  | .hbm, ⟨103, _⟩ => ⟨S50000x1, .f32⟩
  | .hbm, ⟨104, _⟩ => ⟨S_, .f32⟩
  | .hbm, ⟨105, _⟩ => ⟨S1, .f32⟩
  | .hbm, ⟨106, _⟩ => ⟨S1x1, .f32⟩
  | .hbm, ⟨107, _⟩ => ⟨S_, .f32⟩
  | .hbm, ⟨108, _⟩ => ⟨S1x1, .f32⟩
  | .hbm, ⟨109, _⟩ => ⟨S1x1, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_cst_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_12 : Ref sig .tc := ⟨.hbm, 71, rfl⟩
abbrev main_call4_v0 : Ref sig .tc := ⟨.hbm, 72, rfl⟩
abbrev main_call4_v1 : Ref sig .tc := ⟨.hbm, 73, rfl⟩
abbrev main_v42 : Ref sig .tc := ⟨.hbm, 74, rfl⟩
abbrev main_cst_13 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_16 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_17 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_18 : Ref sig .tc := ⟨.hbm, 104, rfl⟩
abbrev main_v67 : Ref sig .tc := ⟨.hbm, 105, rfl⟩
abbrev main_v68 : Ref sig .tc := ⟨.hbm, 106, rfl⟩
abbrev main_cst_19 : Ref sig .tc := ⟨.hbm, 107, rfl⟩
abbrev main_v69 : Ref sig .tc := ⟨.hbm, 108, rfl⟩
abbrev main_v70 : Ref sig .tc := ⟨.hbm, 109, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S_S50000 : S_.BroadcastsInDim S50000 (![] : Fin 0 → Fin S50000.rank)
  bcast_S400000_S400000x1_0 : S400000.BroadcastsInDim S400000x1 (![0] : Fin 1 → Fin S400000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  bcast_S_S1x1 : S_.BroadcastsInDim S1x1 (![] : Fin 0 → Fin S1x1.rank)
  scatter_S50000_S400000x1_S400000_n_0_0_1_wf : ScatterDims.WF S50000 S400000x1 S400000 [] [0] [0] 1
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x512_S50000x512_1_0_0_1_n_n_wf : DotDims.WF S50000x512 S512x512 S50000x512 [1] [0] [0] [1] [] []
  dot_S50000x512_S512x1_S50000x1_1_0_0_1_n_n_wf : DotDims.WF S50000x512 S512x1 S50000x1 [1] [0] [0] [1] [] []

variable [Facts₀]

def scatter_S50000_S400000x1_S400000_n_0_0_1 : ScatterDims S50000 S400000x1 S400000 where
  updateWindowDims := []
  insertedWindowDims := [0]
  scatterDimsToOperandDims := [0]
  indexVectorDim := 1
  wf := scatter_S50000_S400000x1_S400000_n_0_0_1_wf
def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf

class Facts : Prop extends Facts₀ where

variable [Facts]
-- ==== Proof.KernelHostTerms.lean ====
/-
  The kernel program's host-side arithmetic, named.

  Around the one region the program computes, from the edge lists src and dst:
  * the scale vector of an index list, (max 1 (number of edges with that entry))^(-1/2), as a vector over the nodes;
  * the source column: src with negative entries wrapped once by the number of nodes, as an [E, 1] array;
  * the first aggregation: rows feat (src e) · so (src e) summed at dst e;
  * after the region, from the region's output column v: si · (the entries v (src e) summed at dst e) + b2, and
    the mean of that column over the nodes.
-/
import proofs.«117452_j88124138979416_2_alg».proof.KernelIdeal
import proofs.«117452_j88124138979416_2_alg».proof.Proof.Gen.KernelIdeal
import Idealize.ShloMosaic.PureOps.Ideal

noncomputable section

namespace Cert.KernelIdeal.HostTerms

open Idealize.ShloMosaic Cert.KernelIdeal Cert.KernelIdeal.Facts₀

/-- (max 1 (count of x = node))^(-1/2), a vector over the nodes. -/
def scaleVec (x : S400000.Idx → BitVec 32) : S50000.Idx → EReal :=
  Host.powf (F := Ideal)
    (maximumf (broadcastInDim S50000 ![] bcast_S_S50000 (id (constant (F := Ideal) S_ .f32 0x3F800000#32)))
      (Host.scatterAdd scatter_S50000_S400000x1_S400000_n_0_0_1
        (broadcastInDim S50000 ![] bcast_S_S50000 (constant (F := Ideal) S_ .f32 0x00000000#32))
        (broadcastInDim S400000x1 ![0] bcast_S400000_S400000x1_0 x)
        (broadcastInDim S400000 ![] bcast_S_S400000 (constant (F := Ideal) S_ .f32 0x3F800000#32))))
    (broadcastInDim S50000 ![] bcast_S_S50000 (constant (F := Ideal) S_ .f32 0xBF000000#32))

/-- A scale vector laid out as a column. -/
def scaleCol (x : S400000.Idx → BitVec 32) : S50000x1.Idx → EReal :=
  shapeCast S50000x1 (scaleVec x) shapeCasts_S50000_S50000x1

/-- The source list with negative entries wrapped, as a column of start indices. -/
def srcCol (x1 : S400000.Idx → BitVec 32) : S400000x1.Idx → BitVec 32 :=
  broadcastInDim S400000x1 ![0] bcast_S400000_S400000x1_0
    (select (cmpi .slt x1 (broadcastInDim S400000 ![] bcast_S_S400000 (constantI S_ 32 0#32)))
      (addi x1 (broadcastInDim S400000 ![] bcast_S_S400000 (constantI S_ 32 50000#32))) x1)

/-- The target list as a column of start indices. -/
def dstCol (x2 : S400000.Idx → BitVec 32) : S400000x1.Idx → BitVec 32 :=
  broadcastInDim S400000x1 ![0] bcast_S400000_S400000x1_0 x2

/-- The first aggregation. -/
def aggregated (x0 : S50000x512.Idx → EReal) (x1 x2 : S400000.Idx → BitVec 32) : S50000x512.Idx → EReal :=
  Host.scatterAdd (F := Ideal) scatter_S50000x512_S400000x1_S400000x512_1_0_0_1
    (broadcastInDim S50000x512 ![] bcast_S_S50000x512 (constant (F := Ideal) S_ .f32 0x00000000#32))
    (dstCol x2)
    (Host.gather gather_S50000x512_S400000x1_S400000x512_1_0_n_n_0_1_1512
      (mulf (F := Ideal) x0 (broadcastInDim S50000x512 ![0, 1] bcast_S50000x1_S50000x512_0_1 (scaleCol x1)))
      (srcCol x1))

/-- The first bias as a row. -/
def biasRow (x4 : S512.Idx → EReal) : S1x512.Idx → EReal := shapeCast S1x512 x4 shapeCasts_S512_S1x512

/-- The column the final mean is taken of, from the region's output column v. -/
def premean (x1 x2 : S400000.Idx → BitVec 32) (x6 : S1.Idx → EReal) (si v : S50000x1.Idx → EReal) : S50000x1.Idx → EReal :=
  addf (F := Ideal)
    (mulf (F := Ideal) si
      (Host.scatterAdd (F := Ideal) scatter_S50000x1_S400000x1_S400000x1_1_0_0_1
        (broadcastInDim S50000x1 ![] bcast_S_S50000x1 (constant (F := Ideal) S_ .f32 0x00000000#32))
        (dstCol x2)
        (Host.gather gather_S50000x1_S400000x1_S400000x1_1_0_n_n_0_1_11 v (srcCol x1))))
    (broadcastInDim S50000x1 ![0, 1] bcast_S1x1_S50000x1_0_1 (shapeCast S1x1 x6 shapeCasts_S1_S1x1))

/-- The mean over the nodes of an [N, 1] column, as a [1, 1] array: (0 + Σ_n x n) / 50000. -/
def meanOf (x : S50000x1.Idx → EReal) : S1x1.Idx → EReal :=
  Host.divf (F := Ideal)
    (broadcastInDim S1x1 ![1] bcast_S1_S1x1_1
      (Host.reduceAdd (F := Ideal) x (constant (F := Ideal) S_ .f32 0x00000000#32) reducesTo_S50000x1_S1_d0 h_S_))
    (broadcastInDim S1x1 ![] bcast_S_S1x1 (constant (F := Ideal) S_ .f32 0x47435000#32))

end Cert.KernelIdeal.HostTerms

end
-- ==== Proof.KernelPrefix.lean ====
/-
  What the region finds: the four arrays the host lines before it compute, as the named host-side terms of the
  argument arrays — the first aggregation, the two scale columns and the bias row — and the two weight arrays, which
  no host line writes.
-/
import proofs.«117452_j88124138979416_2_alg».proof.Proof.Gen.KernelIdeal.Frame
import proofs.«117452_j88124138979416_2_alg».proof.Proof.KernelHostTerms
import Idealize.ShloMosaic.Lib.StableHlo.Run

set_option maxRecDepth 16384

noncomputable section

namespace Cert.KernelIdeal.Prefix

open Idealize.ShloMosaic Idealize.ShloMosaic.TcCoe Idealize.SL.Sem Idealize.ShloMosaic.StableHlo
open Cert.KernelIdeal Cert.KernelIdeal.Gen Cert.KernelIdeal.HostTerms

variable (m : (ℓ : Loc nD τ sig) → Buf (Elt Ideal) ℓ)

set_option maxHeartbeats 4000000 in
/-- The source scale column the region stages. -/
theorem found_so (c : Dev nD) :
    (V m c main_v11 : S50000x1.Idx → EReal) = scaleCol (m ((c : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

set_option maxHeartbeats 4000000 in
/-- The target scale column the region stages. -/
theorem found_si (c : Dev nD) :
    (V m c main_v14 : S50000x1.Idx → EReal) = scaleCol (m ((c : Thread nD τ).loc main_arg2)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

set_option maxHeartbeats 4000000 in
/-- The first aggregation the region stages. -/
theorem found_agg (c : Dev nD) :
    (V m c main_v26 : S50000x512.Idx → EReal) = aggregated (m ((c : Thread nD τ).loc main_arg0))
      (m ((c : Thread nD τ).loc main_arg1)) (m ((c : Thread nD τ).loc main_arg2)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

set_option maxHeartbeats 4000000 in
/-- The bias row the region stages. -/
theorem found_bias (c : Dev nD) :
    (V m c main_v27 : S1x512.Idx → EReal) = biasRow (m ((c : Thread nD τ).loc main_arg4)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

end Cert.KernelIdeal.Prefix

end
-- ==== Proof.KernelTail.lean ====
/-
  The program's result from the array the region leaves: the host lines after the region gather the region's output
  column at the (wrapped) sources, sum it at the targets, scale by the target scale, add the second bias and take the
  mean over the nodes.  Every array those lines read is either the region's output (the array the blocks were
  written back to) or a buffer the region does not stage, which is as the region found it.
-/
import proofs.«117452_j88124138979416_2_alg».proof.Proof.Gen.KernelIdeal.Frame
import proofs.«117452_j88124138979416_2_alg».proof.Proof.KernelHostTerms
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen Cert.KernelIdeal.HostTerms

variable (m : (ℓ : Loc nD τ sig) → Buf (Elt Ideal) ℓ)

/-- The buffers as the lines after the region find them: the region's arrays as the run left them, the rest as found. -/
abbrev afterRegion (c : Dev nD) (b : Ref sig .tc) :=
  Pipeline.withArrays (cfgs 0).spec c (V0 m c) (fun w => (dats m 0 c).arrAt w (cfgs 0).N) (Proc.devRef .tc b)

set_option maxHeartbeats 8000000 in
/-- The result is the mean of the column built from the buffers the tail reads. -/
theorem result_of_tail (c : Dev nD) :
    (Pipeline.afterTail₀ cfgs (dats m) 0 (V0 m) [hostOps1] c main_v46 : S1x1.Idx → EReal)
      = meanOf (premean (afterRegion m c main_arg1) (afterRegion m c main_arg2) (afterRegion m c main_arg6)
          (afterRegion m c main_v14) (afterRegion m c main_v28)) := by
  unfold Pipeline.afterTail₀
  show StableHlo.after hostOps1 _ (Proc.devRef .tc main_v46) = _
  after_results
  rfl

end Cert.KernelIdeal.Tail

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.LibSegmentSum.lean ====
/-
  Segment sums over the edges of a graph: gathers of whole rows and of single elements, read at an index, an
  accumulating scatter of rows, and the law that a nonnegative real factor shared by every edge landing on a node
  may be taken out of the node's sum.
-/
import Idealize.ShloMosaic.PureOps.Ideal
import Idealize.ShloMosaic.PureOps.ShapeOps
import Idealize.ShloMosaic.PureOps.Contract
import Idealize.ShloMosaic.Lib.ValueIdx

noncomputable section

open scoped BigOperators

namespace Idealize.ShloMosaic.SegmentSum

open Idealize.ShloMosaic Idealize.ShloMosaic.ValueIdx

/-! ## The dimension numbers -/

/-- Whole rows of a table `[N, C]` taken at `E` start indices (an array `[E, 1]`): result row `e` is the table's row
    at the `e`-th start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Single elements of a table `[N]` taken at `E` start indices (an array `[E, 1]`). -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Rows `[E, C]` accumulated into a table `[N, C]` at `E` start indices (an array `[E, 1]`): update row `e` goes to
    the table's row at the `e`-th start index. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The gathers read at an index -/

/-- A start index read signed and clamped into `[0, N − 1]`. -/
def clampRow (N : Nat) (hN : 0 < N) {w : Nat} (v : BitVec w) : Fin N := ⟨min v.toInt.toNat (N - 1), by omega⟩

section Gather
variable {α : Type} {N E C w : Nat}

private theorem fin2_one_ne_zero : ¬((1 : Fin 2) = 0) := by decide

/-- The row gather at `(e, c)`: the table at the `e`-th start index (signed, clamped) and column `c`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (j : (⟨2, ![E, C]⟩ : Shape).Idx) :
    Host.gather (rowGatherDims N E C wf) x idx j = x (ix2 (clampRow N hN (idx (ix2 (j 0) 0))) (j 1)) := by
  unfold Host.gather
  congr 1
  funext a
  refine Fin.ext ?_
  have hsi : (rowGatherDims N E C wf).siIdx j ⟨List.idxOf (0 : Fin 2) (rowGatherDims N E C wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  match a with
  | ⟨0, _⟩ =>
    show (rowGatherDims N E C wf).start j idx 0 + (rowGatherDims N E C wf).batchCoord j 0
      + (rowGatherDims N E C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    rw [hsi]
    rfl
  | ⟨1, _⟩ =>
    show (rowGatherDims N E C wf).start j idx 1 + (rowGatherDims N E C wf).batchCoord j 1
      + (rowGatherDims N E C wf).offCoord j 1 = _
    rw [GatherDims.batchCoord_eq_zero _ _ _ List.not_mem_nil]
    have h1 : (1 : Fin 2) ∉ (rowGatherDims N E C wf).startIndexMap :=
      fun h => absurd (List.mem_singleton.mp h) fin2_one_ne_zero
    have h2 : (1 : Fin 2) ∈ (rowGatherDims N E C wf).sKept :=
      (GatherDims.mem_sKept _ _).2 ⟨fun h => absurd (List.mem_singleton.mp h) fin2_one_ne_zero, List.not_mem_nil⟩
    unfold GatherDims.start GatherDims.offCoord
    rw [dif_neg h1, dif_pos h2]
    simp only [Nat.add_zero, Nat.zero_add]
    rfl

/-- The element gather at `e`: the table at the `e`-th start index (signed, clamped). -/
theorem elemGather_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (elemGatherDims N E wf) x idx e = x (ix1 (clampRow N hN (idx (ix2 (e 0) 0)))) := by
  unfold Host.gather
  congr 1
  funext a
  obtain rfl : a = 0 := Subsingleton.elim _ _
  refine Fin.ext ?_
  show (elemGatherDims N E wf).start e idx 0 + (elemGatherDims N E wf).batchCoord e 0
    + (elemGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  have hsi : (elemGatherDims N E wf).siIdx e ⟨List.idxOf (0 : Fin 1) (elemGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- An update row that lands on element `i` has its start index, read signed, equal to `i`'s row: on the row axis
    the landing place is the start index plus a window coordinate that is zero there. -/
theorem rowScatter_lands (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  have hs : (rowScatterDims N E C wf).start j idx 0 = (idx (ix2 (j 0) 0)).toInt := by
    unfold ScatterDims.start
    rw [dif_pos (show (0 : Fin 2) ∈ (rowScatterDims N E C wf).scatterDimsToOperandDims from List.mem_singleton.mpr rfl)]
    have hsi : (rowScatterDims N E C wf).siIdx j ⟨List.idxOf (0 : Fin 2) (rowScatterDims N E C wf).scatterDimsToOperandDims,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hw : (rowScatterDims N E C wf).window j 0 = 0 := by
    unfold ScatterDims.window
    rw [dif_neg]
    intro hmem
    have := (List.mem_filter.mp hmem).2
    simp at this
  unfold ScatterDims.resultIdx? at h
  split at h
  · rename_i hall
    have hi := Option.some.inj h
    have h0 : ((rowScatterDims N E C wf).start j idx 0 + ((rowScatterDims N E C wf).window j 0 : Int)).toNat = (i 0).val := by
      rw [← hi]
    have hnn := (hall 0).1
    rw [hs, hw] at h0 hnn
    omega
  · exact absurd h (by simp)

end Gather

/-! ## The law: a nonnegative real factor shared by the edges landing on a node leaves the node's sum -/

section Law
variable {N E C : Nat}

/-- A nonnegative real factor goes inside any finite sum of extended reals (no finiteness of the terms is needed:
    a nonnegative real never turns an infinity round, so it distributes over every sum of two). -/
theorem sum_mul_coe_of_nonneg {ι : Type} (S : Finset ι) (a : ι → EReal) (r : ℝ) (hr : 0 ≤ r) :
    (∑ j ∈ S, a j) * (r : EReal) = ∑ j ∈ S, a j * (r : EReal) := by
  classical
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- THE LAW. Each node `i` sums the messages of the edges whose target is `i`. Scaling every message by the
    source's and the target's factor inside the sum is the same as summing messages scaled by the source's factor only
    and scaling the finished sum by `i`'s factor: an edge that lands on `i` has target `i`, so its target factor
    is `i`'s, and that factor, a nonnegative real, leaves the sum. The target column is read twice, once by the
    scatter (`colR`, signed and not clamped) and once by a gather (`colW`, signed and clamped): the two arrays need
    agree only where `colR`'s entry is a row of the table, the only edges that land anywhere. -/
theorem scatter_gather_scale (hN : 0 < N)
    (wfg : GatherDims.WF ⟨2, ![N, C]⟩ ⟨2, ![E, 1]⟩ ⟨2, ![E, C]⟩ [1] [0] [] [0] [] 1 ![1, C])
    (wfe : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (D : (⟨1, ![N]⟩ : Shape).Idx → EReal)
    (hD : ∀ v, ∃ r : ℝ, 0 ≤ r ∧ D v = (r : EReal))
    (rowI colW colR : IVec ⟨2, ![E, 1]⟩ 32)
    (hwrap : ∀ e, 0 ≤ (colR e).toInt → (colR e).toInt < (N : Int) → colW e = colR e)
    (i : (⟨2, ![N, C]⟩ : Shape).Idx) :
    Ideal.hostScatterAdd (rowScatterDims N E C wfs) (fun _ => 0) colR
        (fun j => Host.gather (rowGatherDims N E C wfg) H rowI j *
          (Host.gather (elemGatherDims N E wfe) D rowI (ix1 (j 0)) *
            Host.gather (elemGatherDims N E wfe) D colW (ix1 (j 0)))) i
      = Ideal.hostScatterAdd (rowScatterDims N E C wfs) (fun _ => 0) colR
          (Host.gather (rowGatherDims N E C wfg) (fun v => H v * D (ix1 (v 0))) rowI) i * D (ix1 (i 0)) := by
  obtain ⟨r, hr, hDr⟩ := hD (ix1 (i 0))
  unfold Ideal.hostScatterAdd
  simp only [zero_add]
  rw [hDr, sum_mul_coe_of_nonneg _ _ r hr]
  refine Finset.sum_congr rfl fun j hj => ?_
  have hland := (Finset.mem_filter.mp hj).2
  have hrow := rowScatter_lands wfs colR j i hland
  have hlt : (i 0).val < N := idx2_lt0 i
  have hW : colW (ix2 (j 0) 0) = colR (ix2 (j 0) 0) :=
    hwrap _ (by rw [hrow]; exact Int.natCast_nonneg _) (by rw [hrow]; exact_mod_cast hlt)
  have hclamp : clampRow N hN (colW (ix2 (j 0) 0)) = i 0 := by
    apply Fin.ext
    show min (colW (ix2 (j 0) 0)).toInt.toNat (N - 1) = (i 0).val
    rw [hW, hrow, Int.toNat_natCast]
    omega
  rw [rowGather_apply hN, rowGather_apply hN, elemGather_apply hN, elemGather_apply hN]
  show _ * (_ * D (ix1 (clampRow N hN (colW (ix2 (j 0) 0))))) = _
  rw [hclamp, hDr, mul_assoc]
  rfl

end Law

end Idealize.ShloMosaic.SegmentSum

end
-- ==== Proof.LibRowScatter.lean ====
/-
  An accumulating scatter of rows read at an index, as a sum over the edges.

  Update row e of an [E, C] array goes to the row of an [N, C] table named by the e-th start index, read signed and
  not clamped; an update whose start index is no row of the table is dropped.  So entry (n, k) of the result is the
  table's entry plus the sum, over the edges e whose start index is n, of the update's entry (e, k): an update element
  (e, c) lands on (n, k) exactly when its start index is n and c = k.
-/
import proofs.«117452_j88124138979416_2_alg».proof.Proof.LibSegmentSum

noncomputable section

open scoped BigOperators

namespace Cert.LibRowScatter

open Idealize.ShloMosaic Idealize.ShloMosaic.ValueIdx Idealize.ShloMosaic.SegmentSum

section
variable {N E C w : Nat}

/-- On the row axis the window starts at the start index, read signed. -/
theorem start_row (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the window starts at zero. -/
theorem start_col (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg]
  intro h
  exact absurd (List.mem_singleton.mp h) (by decide : ¬((1 : Fin 2) = 0))

/-- The window coordinate on the row axis is zero (the axis is inserted). -/
theorem window_row (wf : ScatterDims.WF ⟨2, ![N, C]⟩ ⟨2, ![E, 1]⟩ ⟨2, ![E, C]⟩ [1] [0] [0] 1)
    (j : (⟨2, ![E, C]⟩ : Shape).Idx) : (rowScatterDims N E C wf).window j 0 = 0 := by
  unfold ScatterDims.window
  rw [dif_neg]
  intro hmem
  have := (List.mem_filter.mp hmem).2
  simp at this

/-- The window coordinate on the column axis is the update's column. -/
theorem window_col (wf : ScatterDims.WF ⟨2, ![N, C]⟩ ⟨2, ![E, 1]⟩ ⟨2, ![E, C]⟩ [1] [0] [0] 1)
    (j : (⟨2, ![E, C]⟩ : Shape).Idx) : (rowScatterDims N E C wf).window j 1 = (j 1).val := by
  unfold ScatterDims.window
  have hmem : (1 : Fin 2) ∈ (rowScatterDims N E C wf).sKept :=
    List.mem_filter.2 ⟨List.mem_finRange _, by simp⟩
  rw [dif_pos hmem]
  rfl

/-- An update element lands on a table element exactly when its start index is the element's row and the columns agree. -/
theorem lands_iff (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx) :
    (rowScatterDims N E C wf).resultIdx? j idx = some i
      ↔ (idx (ix2 (j 0) 0)).toInt = ((i 0).val : Int) ∧ (j 1).val = (i 1).val := by
  have hs0 := start_row wf idx j
  have hs1 := start_col wf idx j
  have hw0 := window_row wf j
  have hw1 := window_col wf j
  constructor
  · intro h
    refine ⟨rowScatter_lands wf idx j i h, ?_⟩
    unfold ScatterDims.resultIdx? at h
    split at h
    · have hi := Option.some.inj h
      have h1 : ((rowScatterDims N E C wf).start j idx 1 + ((rowScatterDims N E C wf).window j 1 : Int)).toNat = (i 1).val := by
        rw [← hi]
      rw [hs1, hw1] at h1
      omega
    · exact absurd h (by simp)
  · rintro ⟨h0, h1⟩
    have hlt0 : (i 0).val < N := idx2_lt0 i
    have hlt1 : (i 1).val < C := idx2_lt1 i
    unfold ScatterDims.resultIdx?
    have hall : ∀ a, 0 ≤ (rowScatterDims N E C wf).start j idx a + ((rowScatterDims N E C wf).window j a : Int)
        ∧ (rowScatterDims N E C wf).start j idx a + ((rowScatterDims N E C wf).window j a : Int) < ((⟨2, ![N, C]⟩ : Shape).size a : Int) := by
      intro a
      match a with
      | ⟨0, _⟩ =>
        show 0 ≤ (rowScatterDims N E C wf).start j idx 0 + ((rowScatterDims N E C wf).window j 0 : Int)
          ∧ (rowScatterDims N E C wf).start j idx 0 + ((rowScatterDims N E C wf).window j 0 : Int) < (N : Int)
        rw [hs0, hw0, h0]; omega
      | ⟨1, _⟩ =>
        show 0 ≤ (rowScatterDims N E C wf).start j idx 1 + ((rowScatterDims N E C wf).window j 1 : Int)
          ∧ (rowScatterDims N E C wf).start j idx 1 + ((rowScatterDims N E C wf).window j 1 : Int) < (C : Int)
        rw [hs1, hw1]; omega
    rw [dif_pos hall]
    congr 1
    funext a
    match a with
    | ⟨0, _⟩ =>
      apply Fin.ext
      show ((rowScatterDims N E C wf).start j idx 0 + ((rowScatterDims N E C wf).window j 0 : Int)).toNat = (i 0).val
      rw [hs0, hw0, h0]; omega
    | ⟨1, _⟩ =>
      apply Fin.ext
      show ((rowScatterDims N E C wf).start j idx 1 + ((rowScatterDims N E C wf).window j 1 : Int)).toNat = (i 1).val
      rw [hs1, hw1]; omega

/-- THE READING: entry (n, k) of the scatter is the table's entry plus the updates' entries (e, k) over the edges e whose
    start index is n. -/
theorem rowScatter_apply (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (u : (⟨2, ![E, C]⟩ : Shape).Idx → EReal)
    (n : Fin N) (k : Fin C) :
    Ideal.hostScatterAdd (rowScatterDims N E C wf) x idx u (ix2 n k)
      = x (ix2 n k) + ∑ e : Fin E, if (idx (ix2 e 0)).toInt = (n.val : Int) then u (ix2 e k) else 0 := by
  classical
  unfold Ideal.hostScatterAdd
  congr 1
  rw [Finset.sum_filter, sum_idx2]
  refine Finset.sum_congr rfl fun e _ => ?_
  by_cases hA : (idx (ix2 e 0)).toInt = (n.val : Int)
  · rw [if_pos hA, Finset.sum_eq_single k]
    · rw [if_pos ((lands_iff wf idx (ix2 e k) (ix2 n k)).2 ⟨hA, rfl⟩)]
    · intro c _ hc
      rw [if_neg]
      intro h
      exact hc (Fin.ext ((lands_iff wf idx (ix2 e c) (ix2 n k)).1 h).2)
    · intro h; exact absurd (Finset.mem_univ k) h
  · rw [if_neg hA]
    refine Finset.sum_eq_zero fun c _ => ?_
    rw [if_neg]
    intro h
    exact hA ((lands_iff wf idx (ix2 e c) (ix2 n k)).1 h).1

end

end Cert.LibRowScatter

end
-- ==== Proof.LibAggregateProject.lean ====
/-
  Aggregating neighbours' rows and projecting them through a weight column commute, on the extended reals.

  A node sums, over the edges e landing on it, the row H e of its neighbour scaled by the neighbour's factor so e;
  the sum is scaled by the node's own factor si and projected through a column W:

      Σ_k ((Σ_e H e k · so e) · si) · W k.

  Projecting each neighbour's row first, scaling the projection by so e, summing over the edges and scaling by si gives

      si · Σ_e (Σ_k H e k · W k) · so e.

  Over the reals the two are one number.  On the extended reals a factor distributes over a sum only under conditions:
  a nonnegative real factor (so e, si) distributes over every sum, and any factor (W k) distributes over a sum of
  nonnegative terms.  So the law holds when the scales are nonnegative reals and every entry of H is nonnegative,
  whatever W is; no entry need be finite.
-/
import Mathlib.Data.EReal.Inv
import Mathlib.Algebra.BigOperators.Group.Finset.Basic
import Mathlib.Algebra.Order.BigOperators.Group.Finset

noncomputable section

open scoped BigOperators

namespace Cert.LibAggregateProject

/-- An extended real that is a nonnegative real number. -/
def IsNNReal (x : EReal) : Prop := ∃ r : ℝ, 0 ≤ r ∧ x = (r : EReal)

theorem IsNNReal.nonneg {x : EReal} (h : IsNNReal x) : 0 ≤ x := by
  obtain ⟨r, hr, rfl⟩ := h; exact EReal.coe_nonneg.mpr hr

/-- A nonnegative real factor goes inside any finite sum of extended reals. -/
theorem sum_mul_nnreal {ι : Type*} (S : Finset ι) (a : ι → EReal) {p : EReal} (hp : IsNNReal p) :
    (∑ j ∈ S, a j) * p = ∑ j ∈ S, a j * p := by
  classical
  obtain ⟨r, hr, rfl⟩ := hp
  induction S using Finset.induction_on with
  | empty => simp
  | insert k S hk ih =>
    rw [Finset.sum_insert hk, Finset.sum_insert hk,
      EReal.right_distrib_of_nonneg_of_ne_top (EReal.coe_nonneg.mpr hr) (EReal.coe_ne_top r), ih]

/-- Any factor goes inside a finite sum of nonnegative extended reals. -/
theorem sum_nonneg_mul {ι : Type*} (S : Finset ι) (a : ι → EReal) (ha : ∀ j, 0 ≤ a j) (w : EReal) :
    (∑ j ∈ S, a j) * w = ∑ j ∈ S, a j * w := by
  classical
  induction S using Finset.induction_on with
  | empty => simp
  | insert k S hk ih =>
    rw [Finset.sum_insert hk, Finset.sum_insert hk,
      EReal.right_distrib_of_nonneg (ha k) (Finset.sum_nonneg fun j _ => ha j), ih]

/-- THE LAW: aggregate-then-project equals project-then-aggregate. -/
theorem aggregate_project {ι κ : Type*} (S : Finset ι) (K : Finset κ) (H : ι → κ → EReal) (hH : ∀ e k, 0 ≤ H e k)
    (so : ι → EReal) (hso : ∀ e, IsNNReal (so e)) {si : EReal} (hsi : IsNNReal si) (W : κ → EReal) :
    ∑ k ∈ K, ((∑ e ∈ S, H e k * so e) * si) * W k = si * ∑ e ∈ S, (∑ k ∈ K, H e k * W k) * so e := by
  have hL : ∀ k, ((∑ e ∈ S, H e k * so e) * si) * W k = ∑ e ∈ S, ((H e k * so e) * si) * W k := fun k => by
    rw [sum_mul_nnreal S _ hsi,
      sum_nonneg_mul S _ (fun e => mul_nonneg (mul_nonneg (hH e k) (hso e).nonneg) hsi.nonneg)]
  have hR : ∀ e, ((∑ k ∈ K, H e k * W k) * so e) * si = ∑ k ∈ K, ((H e k * W k) * so e) * si := fun e => by
    rw [sum_mul_nnreal K _ (hso e), sum_mul_nnreal K _ hsi]
  rw [Finset.sum_congr rfl fun k _ => hL k, mul_comm si, sum_mul_nnreal S _ hsi,
    Finset.sum_congr rfl fun e _ => hR e, Finset.sum_comm]
  refine Finset.sum_congr rfl fun e _ => Finset.sum_congr rfl fun k _ => ?_
  rw [mul_right_comm (H e k) (so e) si, mul_right_comm (H e k * si) (so e) (W k), mul_right_comm (H e k) si (W k),
    mul_right_comm (H e k * W k) si (so e)]

end Cert.LibAggregateProject

end
-- ==== Proof.LibGraphLayer.lean ====
/-
  The second layer of a two-layer graph convolution, in two arrangements, over Nat extents on the extended reals.

  Every node r holds a row H r of nonnegative hidden features, a source scale SO r and a target scale SI r (nonnegative
  reals).  Edge e carries node src e's row to node dst e.

  Aggregate, then project: the rows H (src e) · SO (src e) are summed over the edges landing on n, the sum is scaled
  by SI n, and the result is multiplied into a weight column W:   Σ_k (agg n k · SI n) · W k.

  Project, then aggregate: each node's row is first multiplied into W and scaled, v r = (Σ_k H r k · W k) · SO r, a
  single number per node; these are summed over the edges landing on n and scaled by SI n.

  The two are equal whatever the start indices are (both read them through the same clamped gather and the same
  dropping scatter) and whatever W holds.
-/
import proofs.«117452_j88124138979416_2_alg».proof.Proof.LibRowScatter
import proofs.«117452_j88124138979416_2_alg».proof.Proof.LibAggregateProject

noncomputable section

open scoped BigOperators

namespace Cert.LibGraphLayer

open Idealize.ShloMosaic Idealize.ShloMosaic.ValueIdx Idealize.ShloMosaic.SegmentSum Cert.LibRowScatter
  Cert.LibAggregateProject

variable {N E D : ℕ}

/-- THE LAW, at the operations: aggregate-then-project equals project-then-aggregate at every node. -/
theorem aggregate_project_rows (hN : 0 < N)
    (wfgD : GatherDims.WF ⟨2, ![N, D]⟩ ⟨2, ![E, 1]⟩ ⟨2, ![E, D]⟩ [1] [0] [] [0] [] 1 ![1, D])
    (wfsD : ScatterDims.WF ⟨2, ![N, D]⟩ ⟨2, ![E, 1]⟩ ⟨2, ![E, D]⟩ [1] [0] [0] 1)
    (wfg1 : GatherDims.WF ⟨2, ![N, 1]⟩ ⟨2, ![E, 1]⟩ ⟨2, ![E, 1]⟩ [1] [0] [] [0] [] 1 ![1, 1])
    (wfs1 : ScatterDims.WF ⟨2, ![N, 1]⟩ ⟨2, ![E, 1]⟩ ⟨2, ![E, 1]⟩ [1] [0] [0] 1)
    (H : (⟨2, ![N, D]⟩ : Shape).Idx → EReal) (hH : ∀ v, 0 ≤ H v)
    (SI SO : (⟨2, ![N, 1]⟩ : Shape).Idx → EReal) (hSI : ∀ v, IsNNReal (SI v)) (hSO : ∀ v, IsNNReal (SO v))
    (W : (⟨2, ![D, 1]⟩ : Shape).Idx → EReal) (srcn dstc : IVec ⟨2, ![E, 1]⟩ 32) (n : Fin N) :
    ∑ k : Fin D, (Ideal.hostScatterAdd (rowScatterDims N E D wfsD) (fun _ => 0) dstc
          (Host.gather (rowGatherDims N E D wfgD) (fun v => H v * SO (ix2 (v 0) (0 : Fin 1))) srcn) (ix2 n k)
        * SI (ix2 n (0 : Fin 1))) * W (ix2 k (0 : Fin 1))
      = SI (ix2 n (0 : Fin 1)) * Ideal.hostScatterAdd (rowScatterDims N E 1 wfs1) (fun _ => 0) dstc
          (Host.gather (rowGatherDims N E 1 wfg1)
            (fun v => (∑ k : Fin D, H (ix2 (v 0) k) * W (ix2 k (0 : Fin 1))) * SO (ix2 (v 0) (0 : Fin 1))) srcn)
          (ix2 n (0 : Fin 1)) := by
  classical
  have hL : ∀ k : Fin D, Ideal.hostScatterAdd (rowScatterDims N E D wfsD) (fun _ => 0) dstc
        (Host.gather (rowGatherDims N E D wfgD) (fun v => H v * SO (ix2 (v 0) (0 : Fin 1))) srcn) (ix2 n k)
      = ∑ e ∈ Finset.univ.filter (fun e : Fin E => (dstc (ix2 e 0)).toInt = (n.val : Int)),
          H (ix2 (clampRow N hN (srcn (ix2 e 0))) k) * SO (ix2 (clampRow N hN (srcn (ix2 e 0))) (0 : Fin 1)) := fun k => by
    rw [rowScatter_apply, zero_add, Finset.sum_filter]
    refine Finset.sum_congr rfl fun e _ => ?_
    rw [rowGather_apply hN]
    rfl
  have hR : Ideal.hostScatterAdd (rowScatterDims N E 1 wfs1) (fun _ => 0) dstc
        (Host.gather (rowGatherDims N E 1 wfg1)
          (fun v => (∑ k : Fin D, H (ix2 (v 0) k) * W (ix2 k (0 : Fin 1))) * SO (ix2 (v 0) (0 : Fin 1))) srcn)
        (ix2 n (0 : Fin 1))
      = ∑ e ∈ Finset.univ.filter (fun e : Fin E => (dstc (ix2 e 0)).toInt = (n.val : Int)),
          (∑ k : Fin D, H (ix2 (clampRow N hN (srcn (ix2 e 0))) k) * W (ix2 k (0 : Fin 1)))
            * SO (ix2 (clampRow N hN (srcn (ix2 e 0))) (0 : Fin 1)) := by
    rw [rowScatter_apply, zero_add, Finset.sum_filter]
    refine Finset.sum_congr rfl fun e _ => ?_
    rw [rowGather_apply hN]
    rfl
  rw [Finset.sum_congr rfl fun k _ => by rw [hL k], hR]
  exact aggregate_project _ Finset.univ (fun e k => H (ix2 (clampRow N hN (srcn (ix2 e 0))) k)) (fun e k => hH _)
    (fun e => SO (ix2 (clampRow N hN (srcn (ix2 e 0))) (0 : Fin 1))) (fun e => hSO _) (hSI _) (fun k => W (ix2 k (0 : Fin 1)))

/-! ## One node's hidden row and its projection -/

section Rows
variable {a c d : ℕ}

/-- The hidden activation of node r, feature k: max (Σ_j (si r · x r j) · w1 j k + b1 k) 0. -/
def hiddenAt (x : (⟨2, ![a, c]⟩ : Shape).Idx → EReal) (si : (⟨2, ![a, 1]⟩ : Shape).Idx → EReal)
    (w1 : (⟨2, ![c, d]⟩ : Shape).Idx → EReal) (b1 : (⟨2, ![1, d]⟩ : Shape).Idx → EReal) (r : Fin a) (k : Fin d) : EReal :=
  max (∑ j : Fin c, (si (ix2 r (0 : Fin 1)) * x (ix2 r j)) * w1 (ix2 j k) + b1 (ix2 (0 : Fin 1) k)) 0

/-- A hidden activation is nonnegative. -/
theorem hiddenAt_nonneg (x : (⟨2, ![a, c]⟩ : Shape).Idx → EReal) (si : (⟨2, ![a, 1]⟩ : Shape).Idx → EReal)
    (w1 : (⟨2, ![c, d]⟩ : Shape).Idx → EReal) (b1 : (⟨2, ![1, d]⟩ : Shape).Idx → EReal) (r : Fin a) (k : Fin d) :
    0 ≤ hiddenAt x si w1 b1 r k := le_max_right _ _

/-- Node r's hidden row projected through the column w2 and scaled by its source scale. -/
def projectedAt (x : (⟨2, ![a, c]⟩ : Shape).Idx → EReal) (si so : (⟨2, ![a, 1]⟩ : Shape).Idx → EReal)
    (w1 : (⟨2, ![c, d]⟩ : Shape).Idx → EReal) (b1 : (⟨2, ![1, d]⟩ : Shape).Idx → EReal)
    (w2 : (⟨2, ![d, 1]⟩ : Shape).Idx → EReal) (r : Fin a) : EReal :=
  (∑ k : Fin d, hiddenAt x si w1 b1 r k * w2 (ix2 k (0 : Fin 1))) * so (ix2 r (0 : Fin 1))

/-- The projection of node r reads row r of the features and of the two scales only: a block of rows gives the same
    number as the whole array at the row the block's row is (the weights and the bias agreeing entry by entry). -/
theorem projectedAt_congr {a' : ℕ} (x : (⟨2, ![a, c]⟩ : Shape).Idx → EReal) (si so : (⟨2, ![a, 1]⟩ : Shape).Idx → EReal)
    (w1 : (⟨2, ![c, d]⟩ : Shape).Idx → EReal) (b1 : (⟨2, ![1, d]⟩ : Shape).Idx → EReal)
    (w2 : (⟨2, ![d, 1]⟩ : Shape).Idx → EReal)
    (x' : (⟨2, ![a', c]⟩ : Shape).Idx → EReal) (si' so' : (⟨2, ![a', 1]⟩ : Shape).Idx → EReal)
    (w1' : (⟨2, ![c, d]⟩ : Shape).Idx → EReal) (b1' : (⟨2, ![1, d]⟩ : Shape).Idx → EReal)
    (w2' : (⟨2, ![d, 1]⟩ : Shape).Idx → EReal) (r : Fin a) (r' : Fin a')
    (hx : ∀ j : Fin c, x' (ix2 r' j) = x (ix2 r j)) (hsi : si' (ix2 r' (0 : Fin 1)) = si (ix2 r (0 : Fin 1)))
    (hso : so' (ix2 r' (0 : Fin 1)) = so (ix2 r (0 : Fin 1)))
    (hw1 : ∀ (j : Fin c) (k : Fin d), w1' (ix2 j k) = w1 (ix2 j k))
    (hb1 : ∀ k : Fin d, b1' (ix2 (0 : Fin 1) k) = b1 (ix2 (0 : Fin 1) k))
    (hw2 : ∀ k : Fin d, w2' (ix2 k (0 : Fin 1)) = w2 (ix2 k (0 : Fin 1))) :
    projectedAt x' si' so' w1' b1' w2' r' = projectedAt x si so w1 b1 w2 r := by
  unfold projectedAt hiddenAt
  rw [hsi, hso]
  simp only [hx, hw1, hb1, hw2]

/-- Every node's projected value, as an [a, 1] column. -/
def projectedCol (x : (⟨2, ![a, c]⟩ : Shape).Idx → EReal) (si so : (⟨2, ![a, 1]⟩ : Shape).Idx → EReal)
    (w1 : (⟨2, ![c, d]⟩ : Shape).Idx → EReal) (b1 : (⟨2, ![1, d]⟩ : Shape).Idx → EReal)
    (w2 : (⟨2, ![d, 1]⟩ : Shape).Idx → EReal) : (⟨2, ![a, 1]⟩ : Shape).Idx → EReal :=
  fun i => projectedAt x si so w1 b1 w2 (i 0)

end Rows

end Cert.LibGraphLayer

end
-- ==== Proof.KernelPayload.lean ====
/-
  What the kernel body stores, entry by entry, on the extended reals.

  From a block of 2000 rows of the aggregated features a, the rows' target scales si and source scales so (one column
  each), the weights w1 [512, 512], the bias row b1 [1, 512] and the weight column w2 [512, 1], the body stores for
  row r the single number

      (Σ_k max (Σ_j (si r · a r j) · w1 j k + b1 k) 0 · w2 k) · so r.

  Changes of float format are the identity on the extended reals and both products start from a zero accumulator, so each
  product is the plain sum over its contracted axis.
-/
import proofs.«117452_j88124138979416_2_alg».proof.Proof.Gen.KernelIdeal.Skeleton
import proofs.«117452_j88124138979416_2_alg».proof.Proof.LibAffine
import proofs.«117452_j88124138979416_2_alg».proof.Proof.LibColumnRow
import proofs.«117452_j88124138979416_2_alg».proof.Proof.LibPlainDot
import proofs.«117452_j88124138979416_2_alg».proof.Proof.LibGraphLayer
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen
  Cert.LibAffine Cert.LibColumnRow Cert.LibPlainDot Cert.LibGraphLayer

/-- The body's one store, read at row r: the row's hidden activations projected through w2 and scaled by so r. -/
theorem pay_apply (x0 : Vec Ideal S2000x512 .f32) (x1 x2 : Vec Ideal S2000x1 .f32) (x3 : Vec Ideal S512x512 .f32)
    (x4 : Vec Ideal S1x512 .f32) (x5 : Vec Ideal S512x1 .f32) (r : Fin 2000) :
    k0_pay1 (F := Ideal) x0 x1 x2 x3 x4 x5 (ix2 r (0 : Fin 1)) = projectedAt x0 x1 x2 x3 x4 x5 r := by
  unfold k0_pay1 projectedAt
  show (matmul (F := Ideal) dot_S2000x512_S512x1_S2000x1_1_0_0_1_n_n none _ _ (constant (F := Ideal) S2000x1 .f32 0x00000000#32)) (ix2 r (0 : Fin 1))
      * (shapeCast S2000x1 x2 shapeCasts_S2000x1_S2000x1) (ix2 r (0 : Fin 1)) = _
  refine congrArg₂ (· * ·) ?_ (congrFun (shapeCast_self _ _) _)
  refine (coreDot_ix2 dot_S2000x512_S512x1_S2000x1_1_0_0_1_n_n (contr_rank _ rfl) (contr_size _ rfl)
    (lhs_row _ rfl rfl) (lhs_col _ rfl) (rhs_row _ rfl rfl) (rhs_col _ rfl rfl rfl rfl) none _ _ r (0 : Fin 1)).trans ?_
  refine Finset.sum_congr rfl fun k _ => ?_
  refine congrArg₂ (· * ·) ?_ rfl
  unfold hiddenAt
  show max (_ + _) _ = _
  refine congrArg₂ max (congrArg₂ (· + ·) ?_ ?_) Ideal.ofBits_zero_f32
  · refine (coreDot_ix2 dot_S2000x512_S512x512_S2000x512_1_0_0_1_n_n (contr_rank _ rfl) (contr_size _ rfl)
      (lhs_row _ rfl rfl) (lhs_col _ rfl) (rhs_row _ rfl rfl) (rhs_col _ rfl rfl rfl rfl) none _ _ r k).trans ?_
    refine Finset.sum_congr rfl fun j _ => ?_
    refine congrArg₂ (· * ·) ?_ rfl
    show (_ : EReal) * (_ : EReal) = _
    refine congrArg₂ (fun u v : EReal => u * v) ?_ (congrFun (shapeCast_self _ _) _)
    exact (broadcastTo_a1_ab_apply _ _ r j).trans (congrFun (shapeCast_self _ _) _)
  · exact (broadcastTo_1b_ab_apply _ _ r k).trans (congrFun (shapeCast_self _ _) _)

end Cert.KernelIdeal.Payload

end
-- ==== Proof.KernelBlocks.lean ====
/-
  The blocks of the kernel's seven windows, read at an index.

  The grid has 25 points.  At point t the three row-blocked inputs (the aggregated features and the two scale columns)
  and the output column hold rows 2000·t … 2000·t + 1999 of their arrays; the two weight arrays and the bias row are
  staged whole.  So row r of a row block is row 2000·t + r of its array, and an entry of a whole block is the same
  entry of its array.
-/
import proofs.«117452_j88124138979416_2_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

/-- The printed index maps over the grid: the three row-blocked inputs move with the output's block row, their
    column block is 0, the three whole inputs stay at block (0, 0), and the output's block row is at most 24. -/
theorem block_indices : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 24 :=
  (by decide +kernel : ∀ t : Fin grid0.N, _)

/-- Every block row of the output is some point's. -/
theorem block_onto : ∀ q : Fin 25, ∃ t : Fin cfg0.N, win0_6.index t = ![q.val, 0] :=
  (by decide +kernel : ∀ q : Fin 25, ∃ t : Fin grid0.N, win0_6.index t = ![q.val, 0])

/-- The row of the output array that row r of point t's block is. -/
def rowOf (t : Fin cfg0.N) (r : Fin 2000) : Fin 50000 :=
  ⟨win0_6.index t (0 : Fin 2) * 2000 + r.val, by
    obtain ⟨-, -, -, -, -, -, -, -, -, -, -, -, -, h⟩ := block_indices t
    have := r.isLt
    omega⟩

section Reads
variable {α : Type}

/-- Row r of point t's block of the aggregated features is row rowOf t r of the array. -/
theorem read_features (X : S50000x512.Idx → α) (t : Fin cfg0.N) (r : Fin 2000) (j : Fin 512) :
    X (((cfg0.win 0).blk t).view.emb (ix2 r j)) = X (ix2 (rowOf t r) j) := by
  obtain ⟨e00, e01, -⟩ := block_indices t
  refine congrArg X (funext fun a => Fin.ext ?_)
  match a with
  | ⟨0, _⟩ => show win0_0.index t (0 : Fin 2) * 2000 + 1 * r.val = win0_6.index t (0 : Fin 2) * 2000 + r.val; omega
  | ⟨1, _⟩ => show win0_0.index t (1 : Fin 2) * 512 + 1 * j.val = j.val; omega

/-- Row r of point t's block of the target-scale column. -/
theorem read_si (X : S50000x1.Idx → α) (t : Fin cfg0.N) (r : Fin 2000) :
    X (((cfg0.win 1).blk t).view.emb (ix2 r (0 : Fin 1))) = X (ix2 (rowOf t r) (0 : Fin 1)) := by
  obtain ⟨-, -, e10, e11, -⟩ := block_indices t
  refine congrArg X (funext fun a => Fin.ext ?_)
  match a with
  | ⟨0, _⟩ => show win0_1.index t (0 : Fin 2) * 2000 + 1 * r.val = win0_6.index t (0 : Fin 2) * 2000 + r.val; omega
  | ⟨1, _⟩ => show win0_1.index t (1 : Fin 2) * 1 + 1 * 0 = 0; omega

/-- Row r of point t's block of the source-scale column. -/
theorem read_so (X : S50000x1.Idx → α) (t : Fin cfg0.N) (r : Fin 2000) :
    X (((cfg0.win 2).blk t).view.emb (ix2 r (0 : Fin 1))) = X (ix2 (rowOf t r) (0 : Fin 1)) := by
  obtain ⟨-, -, -, -, e20, e21, -⟩ := block_indices t
  refine congrArg X (funext fun a => Fin.ext ?_)
  match a with
  | ⟨0, _⟩ => show win0_2.index t (0 : Fin 2) * 2000 + 1 * r.val = win0_6.index t (0 : Fin 2) * 2000 + r.val; omega
  | ⟨1, _⟩ => show win0_2.index t (1 : Fin 2) * 1 + 1 * 0 = 0; omega

/-- The first weight array is staged whole. -/
theorem read_w1 (X : S512x512.Idx → α) (t : Fin cfg0.N) (j k : Fin 512) :
    X (((cfg0.win 3).blk t).view.emb (ix2 j k)) = X (ix2 j k) := by
  obtain ⟨-, -, -, -, -, -, e30, e31, -⟩ := block_indices t
  refine congrArg X (funext fun a => Fin.ext ?_)
  match a with
  | ⟨0, _⟩ => show win0_3.index t (0 : Fin 2) * 512 + 1 * j.val = j.val; omega
  | ⟨1, _⟩ => show win0_3.index t (1 : Fin 2) * 512 + 1 * k.val = k.val; omega

/-- The bias row is staged whole. -/
theorem read_b1 (X : S1x512.Idx → α) (t : Fin cfg0.N) (k : Fin 512) :
    X (((cfg0.win 4).blk t).view.emb (ix2 (0 : Fin 1) k)) = X (ix2 (0 : Fin 1) k) := by
  obtain ⟨-, -, -, -, -, -, -, -, e40, e41, -⟩ := block_indices t
  refine congrArg X (funext fun a => Fin.ext ?_)
  match a with
  | ⟨0, _⟩ => show win0_4.index t (0 : Fin 2) * 1 + 1 * 0 = 0; omega
  | ⟨1, _⟩ => show win0_4.index t (1 : Fin 2) * 512 + 1 * k.val = k.val; omega

/-- The second weight column is staged whole. -/
theorem read_w2 (X : S512x1.Idx → α) (t : Fin cfg0.N) (k : Fin 512) :
    X (((cfg0.win 5).blk t).view.emb (ix2 k (0 : Fin 1))) = X (ix2 k (0 : Fin 1)) := by
  obtain ⟨-, -, -, -, -, -, -, -, -, -, e50, e51, -⟩ := block_indices t
  refine congrArg X (funext fun a => Fin.ext ?_)
  match a with
  | ⟨0, _⟩ => show win0_5.index t (0 : Fin 2) * 512 + 1 * k.val = k.val; omega
  | ⟨1, _⟩ => show win0_5.index t (1 : Fin 2) * 1 + 1 * 0 = 0; omega

/-- Row r of point t's block of the output column is row rowOf t r of the output array. -/
theorem emb_out (t : Fin cfg0.N) (r : Fin 2000) :
    ((cfg0.win 6).blk t).view.emb (ix2 r (0 : Fin 1)) = ix2 (rowOf t r) (0 : Fin 1) := by
  obtain ⟨-, -, -, -, -, -, -, -, -, -, -, -, e61, -⟩ := block_indices t
  refine funext fun a => Fin.ext ?_
  match a with
  | ⟨0, _⟩ => show win0_6.index t (0 : Fin 2) * 2000 + 1 * r.val = win0_6.index t (0 : Fin 2) * 2000 + r.val; omega
  | ⟨1, _⟩ => show win0_6.index t (1 : Fin 2) * 1 + 1 * 0 = 0; omega

end Reads

/-- An index of the output array is in point t's block iff each coordinate is in the block's range on its axis. -/
theorem mem_block (t : Fin cfg0.N) (i : S50000x1.Idx) :
    i ∈ ((cfg0.win 6).blk t).view.set ↔ ∀ a : Fin 2, win0_6.index t a * S2000x1.size a ≤ (i a).val
      ∧ (i a).val < win0_6.index t a * S2000x1.size a + S2000x1.size a := by
  show i ∈ ((View.whole main_v28).slice (win0_6.rect t)).set ↔ _
  rw [View.set_slice_whole, Rect.mem_set_unit]
  exact Iff.rfl

/-- Row i of the output lies in the block of the point whose block row is i / 2000. -/
theorem covered (i : S50000x1.Idx) :
    ∃ t : Fin cfg0.N, (cfg0.win 6).flush t = true ∧ i ∈ ((cfg0.win 6).blk t).view.set := by
  have hi0 : (i 0).val < 50000 := (i 0).isLt
  have hi1 : (i 1).val < 1 := (i 1).isLt
  obtain ⟨t, ht⟩ := block_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_block]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 1 ≤ (i 1).val ∧ (i 1).val < win0_6.index t (1 : Fin 2) * 1 + 1
    omega

end Cert.KernelIdeal.Blocks

end
-- ==== Proof.KernelArray.lean ====
/-
  The array the kernel leaves: one function of the arrays the region finds.

  The number the body stores for a row depends on that row of the aggregated features and of the two scales only (and
  on the whole of w1, b1, w2), so what point t writes back is block t of the whole-array function
  "node r ↦ its hidden row projected through w2 and scaled by so r"; the 25 blocks tile the 50000 rows, so the
  output array ends holding that function.
-/
import proofs.«117452_j88124138979416_2_alg».proof.Proof.Gen.KernelIdeal.Frame
import proofs.«117452_j88124138979416_2_alg».proof.Proof.KernelPayload
import proofs.«117452_j88124138979416_2_alg».proof.Proof.KernelBlocks
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.LibGraphLayer
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- The arrays the region finds, window by window. -/
abbrev found (c : Dev nD) (w : Fin cfg0.W) := V m c (Pipeline.arrRef spec0 w)

/-- A window's block at a point is its array read through the block, window by window. -/
theorem blk_features (c : Dev nD) (t : Fin cfg0.N) (y : S2000x512.Idx) :
    iblk m c 0 t y = found m c 0 (((cfg0.win 0).blk t).view.emb y) := rfl
theorem blk_si (c : Dev nD) (t : Fin cfg0.N) (y : S2000x1.Idx) :
    iblk m c 1 t y = found m c 1 (((cfg0.win 1).blk t).view.emb y) := rfl
theorem blk_so (c : Dev nD) (t : Fin cfg0.N) (y : S2000x1.Idx) :
    iblk m c 2 t y = found m c 2 (((cfg0.win 2).blk t).view.emb y) := rfl
theorem blk_w1 (c : Dev nD) (t : Fin cfg0.N) (y : S512x512.Idx) :
    iblk m c 3 t y = found m c 3 (((cfg0.win 3).blk t).view.emb y) := rfl
theorem blk_b1 (c : Dev nD) (t : Fin cfg0.N) (y : S1x512.Idx) :
    iblk m c 4 t y = found m c 4 (((cfg0.win 4).blk t).view.emb y) := rfl
theorem blk_w2 (c : Dev nD) (t : Fin cfg0.N) (y : S512x1.Idx) :
    iblk m c 5 t y = found m c 5 (((cfg0.win 5).blk t).view.emb y) := rfl

set_option maxHeartbeats 1000000 in
/-- The body's result on point t's blocks, at row r, is the whole-array function at the row that row is. -/
theorem stored_blocks (c : Dev nD) (t : Fin cfg0.N) (r : Fin 2000) :
    projectedAt (a := 2000) (c := 512) (d := 512) (iblk m c 0 t) (iblk m c 1 t) (iblk m c 2 t) (iblk m c 3 t) (iblk m c 4 t) (iblk m c 5 t) r
      = projectedAt (a := 50000) (c := 512) (d := 512) (found m c 0) (found m c 1) (found m c 2) (found m c 3) (found m c 4) (found m c 5)
          (rowOf t r) :=
  projectedAt_congr (a := 50000) (c := 512) (d := 512) (a' := 2000) (found m c 0) (found m c 1) (found m c 2) (found m c 3)
    (found m c 4) (found m c 5) (iblk m c 0 t) (iblk m c 1 t) (iblk m c 2 t) (iblk m c 3 t) (iblk m c 4 t) (iblk m c 5 t)
    (rowOf t r) r
    (fun j => (blk_features m c t (ix2 r j)).trans (read_features (found m c 0) t r j))
    ((blk_si m c t (ix2 r (0 : Fin 1))).trans (read_si (found m c 1) t r))
    ((blk_so m c t (ix2 r (0 : Fin 1))).trans (read_so (found m c 2) t r))
    (fun j k => (blk_w1 m c t (ix2 j k)).trans (read_w1 (found m c 3) t j k))
    (fun k => (blk_b1 m c t (ix2 (0 : Fin 1) k)).trans (read_b1 (found m c 4) t k))
    (fun k => (blk_w2 m c t (ix2 k (0 : Fin 1))).trans (read_w2 (found m c 5) t k))

set_option maxHeartbeats 1000000 in
/-- What point t writes back is block t of the whole-array function. -/
theorem flushed_eq (c : Dev nD) (t : Fin cfg0.N) :
    (dats m 0 c).flushed 6 t = ((cfg0.win 6).blk t).view.read (Elt Ideal)
      (projectedCol (a := 50000) (found m c 0) (found m c 1) (found m c 2) (found m c 3) (found m c 4) (found m c 5)) := by
  show (cfg0.win 6).cut (grid0.coords t) ((dats m 0 c).after 6 t) = _
  rw [after0_6]
  unfold out0_6
  rw [View.canon_unit_zero offsets_zero]
  simp only [View.ld_unit_zero (S := S2000x512) offsets_zero, View.ld_unit_zero (S := S2000x1) offsets_zero,
    View.ld_unit_zero (S := S512x512) offsets_zero, View.ld_unit_zero (S := S1x512) offsets_zero,
    View.ld_unit_zero (S := S512x1) offsets_zero]
  funext y
  obtain ⟨r, q, rfl⟩ : ∃ (r : Fin 2000) (q : Fin 1), y = ix2 r q := ⟨y 0, y 1, eq_ix2 y⟩
  obtain rfl : q = 0 := Subsingleton.elim _ _
  refine (Payload.pay_apply (iblk m c 0 t) (iblk m c 1 t) (iblk m c 2 t) (iblk m c 3 t) (iblk m c 4 t) (iblk m c 5 t) r).trans ?_
  refine (stored_blocks m c t r).trans ?_
  show projectedCol (a := 50000) (found m c 0) (found m c 1) (found m c 2) (found m c 3) (found m c 4) (found m c 5) (ix2 (rowOf t r) (0 : Fin 1)) = _
  exact congrArg _ (emb_out t r).symm

/-- The output array after the run is the whole-array function of the arrays the region finds. -/
theorem final (c : Dev nD) : (dats m 0 c).arrAt 6 cfg0.N
    = projectedCol (a := 50000) (found m c 0) (found m c 1) (found m c 2) (found m c 3) (found m c 4) (found m c 5) :=
  (dats m 0 c).arrAt_eq_of_cover 6 _ (fun t _ => flushed_eq m c t) covered

end Cert.KernelIdeal.Blocks

end
-- ==== Proof.KernelRun.lean ====
/-
  The kernel program's run, with its result named.

  Every weakly fair execution ends with the result buffer at one function of the argument arrays: the mean over the
  nodes of  si · (Σ over the edges landing on a node of v (src e)) + b2,  where v r is node r's hidden row projected
  through w2 and scaled by so r, and si, so, the first aggregation and the bias row are the host-side terms of the
  arguments.  The argument arrays end unchanged.
-/
import proofs.«117452_j88124138979416_2_alg».proof.Proof.KernelPrefix
import proofs.«117452_j88124138979416_2_alg».proof.Proof.KernelTail
import proofs.«117452_j88124138979416_2_alg».proof.Proof.KernelArray

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.HostTerms Cert.KernelIdeal.Blocks Cert.KernelIdeal.Prefix
  Cert.KernelIdeal.Tail Cert.LibGraphLayer

variable (m : (ℓ : Loc nD τ sig) → Buf (Elt Ideal) ℓ) (ρ : Dev nD → PrngReg)

/-- The program's result as one function of its seven argument arrays. -/
def result (x0 : S50000x512.Idx → EReal) (x1 x2 : S400000.Idx → BitVec 32) (x3 : S512x512.Idx → EReal)
    (x4 : S512.Idx → EReal) (x5 : S512x1.Idx → EReal) (x6 : S1.Idx → EReal) : S1x1.Idx → EReal :=
  meanOf (premean x1 x2 x6 (scaleCol x2)
    (projectedCol (a := 50000) (aggregated x0 x1 x2) (scaleCol x2) (scaleCol x1) x3 (biasRow x4) x5))

/-- The edge lists and the second bias are not staged by the region: the tail reads them as launched. -/
theorem tail_src (c : Dev nD) : afterRegion m c main_arg1 = m ((c : Thread nD τ).loc main_arg1) :=
  (Pipeline.withArrays_of_ne _ c (V0 m c) _ main_arg1 (by exact (by decide : ∀ w, Pipeline.arrRef spec0 w ≠ main_arg1))).trans
    (V_main_arg1 m c)
theorem tail_dst (c : Dev nD) : afterRegion m c main_arg2 = m ((c : Thread nD τ).loc main_arg2) :=
  (Pipeline.withArrays_of_ne _ c (V0 m c) _ main_arg2 (by exact (by decide : ∀ w, Pipeline.arrRef spec0 w ≠ main_arg2))).trans
    (V_main_arg2 m c)
theorem tail_b2 (c : Dev nD) : afterRegion m c main_arg6 = m ((c : Thread nD τ).loc main_arg6) :=
  (Pipeline.withArrays_of_ne _ c (V0 m c) _ main_arg6 (by exact (by decide : ∀ w, Pipeline.arrRef spec0 w ≠ main_arg6))).trans
    (V_main_arg6 m c)

/-- The target scale column is an input window's array: the run leaves it as the region found it. -/
theorem tail_si (c : Dev nD) : afterRegion m c main_v14 = scaleCol (m ((c : Thread nD τ).loc main_arg2)) :=
  (Pipeline.withArrays_arr spec0 launch0.win.arr_inj c _ _ 1).trans
    (((dats m 0 c).arrAt_in 1 rfl _).trans ((A_eq m c 1).trans (found_si m c)))

/-- The region's output array as the tail finds it: the whole-array function of the host-side terms. -/
theorem tail_out (c : Dev nD) : afterRegion m c main_v28
    = projectedCol (a := 50000) (aggregated (m ((c : Thread nD τ).loc main_arg0)) (m ((c : Thread nD τ).loc main_arg1)) (m ((c : Thread nD τ).loc main_arg2)))
        (scaleCol (m ((c : Thread nD τ).loc main_arg2))) (scaleCol (m ((c : Thread nD τ).loc main_arg1)))
        (m ((c : Thread nD τ).loc main_arg3)) (biasRow (m ((c : Thread nD τ).loc main_arg4))) (m ((c : Thread nD τ).loc main_arg5)) := by
  have h0 : found m c 0 = _ := found_agg m c
  have h1 : found m c 1 = _ := found_si m c
  have h2 : found m c 2 = _ := found_so m c
  have h3 : found m c 3 = _ := V_main_arg3 m c
  have h4 : found m c 4 = _ := found_bias m c
  have h5 : found m c 5 = _ := V_main_arg5 m c
  refine (Pipeline.withArrays_arr spec0 launch0.win.arr_inj c _ _ 6).trans ((final m c).trans ?_)
  rw [h0, h1, h2, h3, h4, h5]

/-- THE RUN: the result buffer ends at `result` of the argument arrays, and the arguments end unchanged. -/
theorem run : θ_run defs (onTc (τ := τ) (main (F := Ideal))) ⟨m, fun _ => 0, ρ⟩ (fun r => ∀ c : Dev nD,
      r.2.mem ((c.tc : Thread nD τ).loc main_v46)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v46 (Pipeline.mem_restRefs_of main_v46 (by decide) (by decide))).trans (by
        rw [result_of_tail, tail_src, tail_dst, tail_b2, tail_out, tail_si]
        rfl),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c))⟩)
    (run_main m ρ)

end Cert.KernelIdeal.KernelValue

end
-- ==== Proof.LibBroadcastRead.lean ====
/-
  Two broadcasts read at an index.

  A single number broadcast into an array of any shape is that number at every index. A one-column array [a, 1] laid
  along every row of an [a, b] array by a broadcast along both axes is, at (p, c), the column's entry p.

  General lemmas: nothing here mentions a program; the shapes and extents are variables.
-/
import Idealize.ShloMosaic.Lib.Pipeline.Value
import Idealize.ShloMosaic.Lib.ValueIdx
import Idealize.ShloMosaic.Lib.ValueLayout

namespace Cert.LibBroadcastRead

open Idealize.ShloMosaic Idealize.ShloMosaic.ValueIdx

variable {α : Type}

/-- A rank-0 array broadcast into any shape reads, at every index, its one entry. -/
theorem broadcastInDim_scalar_apply {t : Shape} (hd : (⟨0, ![]⟩ : Shape).BroadcastsInDim t ![])
    (x : (⟨0, ![]⟩ : Shape).Idx → α) (j : t.Idx) : broadcastInDim t ![] hd x j = x ix0 :=
  broadcastInDim_apply ![] hd x j ix0 fun ax => ax.elim0

/-- A column [a, 1] laid along every row of an [a, b] array by a broadcast along both axes reads, at (p, c), the
    column's entry p. -/
theorem broadcastInDim_a1_ab_apply {a b : ℕ} (hd : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hd v (ix2 p c) = v (ix2 p (0 : Fin 1)) := by
  refine broadcastInDim_apply ![0, 1] hd v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibBroadcastRead
-- ==== Proof.LibBatchNorm.lean ====
/-
  General lemmas: batch normalisation followed by a rectifier, on the extended reals, in two arrangements.

  A finite family h of values is normalised with its own mean m = (∑ h) / n and variance v, scaled by γ, shifted by β and
  clipped below at zero. The first arrangement computes the variance as the mean of squares minus the square of the mean,
  clipped below at zero, folds γ and the inverse root into one scale s = γ · (v + ε)^(-1/2) and the mean into one shift
  β − m · s, and returns max (x · s + (β − m · s)) 0. The second computes the variance as the mean of the squared
  deviations and returns max ((x − m) · (v + ε)^(-1/2) · γ + β) 0. When every value, γ, β and ε are real numbers, ε is
  positive and n is the (positive) number of values, the two agree: over the reals the two variances are one number
  (the sum of (h − m)² is the sum of h² minus n · m², because the sum of h is n · m), it is nonnegative, so the clip does
  nothing, its sum with ε is positive, so the inverse root is a real number, and the rest is ring arithmetic. On the
  extended reals the law is false at the infinities (distributivity fails), hence the hypotheses.

  Also here: the predicate "is a real number" on extended reals with its closure under sums, products and finite sums,
  the coercion of a finite real sum, and the inverse root of a positive real.
  Nothing here mentions a program.
-/
import Idealize.ShloMosaic.PureOps.Ideal.Laws

noncomputable section

namespace Cert.LibBatchNorm

open Idealize.ShloMosaic

/-- An extended real that is a real number. -/
def IsReal (x : EReal) : Prop := ∃ r : ℝ, x = (r : EReal)

theorem isReal_coe (r : ℝ) : IsReal (r : EReal) := ⟨r, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- An extended real whose absolute value is below +∞ is a real number. -/
theorem isReal_of_abs_lt_top {x : EReal} (h : max x (-x) < ⊤) : IsReal x := by
  induction x using EReal.rec with
  | bot => simp at h
  | top => simp at h
  | coe r => exact ⟨r, rfl⟩

/-- The inverse square root of a positive real is the real inverse root. -/
theorem rsqrt_coe_pos {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg (ne_of_gt h)]

/-- The first arrangement: variance from the raw moments s = ∑ h and q = ∑ h², clipped at zero; one scale, one shift. -/
def foldedNorm (x s q n γ β ε : EReal) : EReal :=
  max (x * (γ * Ideal.rsqrt (max (Ideal.div q n - Ideal.div s n * Ideal.div s n) 0 + ε))
      + (β - Ideal.div s n * (γ * Ideal.rsqrt (max (Ideal.div q n - Ideal.div s n * Ideal.div s n) 0 + ε)))) 0

/-- The second arrangement: centre, scale by the inverse root of the mean squared deviation plus ε, then γ and β. -/
def centredNorm {ι : Type*} [Fintype ι] (h : ι → EReal) (n γ β ε : EReal) (e : ι) : EReal :=
  max ((h e - Ideal.div (∑ i, h i) n)
        * Ideal.rsqrt (Ideal.div (∑ i, (h i - Ideal.div (∑ i, h i) n) * (h i - Ideal.div (∑ i, h i) n)) n + ε) * γ + β) 0

/-- Over the reals the mean squared deviation is the mean of squares minus the squared mean. -/
theorem real_variance {ι : Type*} [Fintype ι] (f : ι → ℝ) (n : ℝ) (hn : n = (Fintype.card ι : ℝ)) (h0 : n ≠ 0) :
    (∑ i, (f i - (∑ i, f i) * (1 / n)) * (f i - (∑ i, f i) * (1 / n))) * (1 / n)
      = (∑ i, f i * f i) * (1 / n) - (∑ i, f i) * (1 / n) * ((∑ i, f i) * (1 / n)) := by
  have e : ∀ i, (f i - (∑ i, f i) * (1 / n)) * (f i - (∑ i, f i) * (1 / n))
      = f i * f i - 2 * ((∑ i, f i) * (1 / n)) * f i + (∑ i, f i) * (1 / n) * ((∑ i, f i) * (1 / n)) := fun i => by ring
  rw [Finset.sum_congr rfl fun i _ => e i, Finset.sum_add_distrib, Finset.sum_sub_distrib, ← Finset.mul_sum,
    Finset.sum_const, Finset.card_univ, nsmul_eq_mul, ← hn]
  field_simp
  ring

/-- The two arrangements agree on real data. -/
theorem foldedNorm_eq_centredNorm {ι : Type*} [Fintype ι] (h : ι → EReal) (hh : ∀ i, IsReal (h i)) (n : ℝ)
    (hn : n = (Fintype.card ι : ℝ)) (hpos : 0 < n) {γ β ε : EReal} (hγ : IsReal γ) (hβ : IsReal β) (ε' : ℝ) (hε : ε = (ε' : EReal))
    (hε' : 0 < ε') (e : ι) :
    foldedNorm (h e) (∑ i, h i) (∑ i, h i * h i) (n : EReal) γ β ε = centredNorm h (n : EReal) γ β ε e := by
  choose f hf using hh
  obtain ⟨g, rfl⟩ := hγ
  obtain ⟨b, rfl⟩ := hβ
  subst hε
  have hn0 : n ≠ 0 := ne_of_gt hpos
  have hfun : h = fun i => (f i : EReal) := funext hf
  subst hfun
  unfold foldedNorm centredNorm
  simp only [Ideal.div_coe hn0]
  have hs : (∑ i, (f i : EReal)) = ((∑ i, f i : ℝ) : EReal) := (coe_sum _ _).symm
  have hq : (∑ i, (f i : EReal) * (f i : EReal)) = ((∑ i, f i * f i : ℝ) : EReal) := by
    rw [coe_sum]; exact Finset.sum_congr rfl fun i _ => (EReal.coe_mul _ _).symm
  rw [hs, hq]
  have hd : (∑ i, ((f i : EReal) - ((∑ i, f i : ℝ) : EReal) * ((1 / n : ℝ) : EReal)) * ((f i : EReal) - ((∑ i, f i : ℝ) : EReal) * ((1 / n : ℝ) : EReal)))
      = ((∑ i, (f i - (∑ i, f i) * (1 / n)) * (f i - (∑ i, f i) * (1 / n)) : ℝ) : EReal) := by
    refine ((coe_sum Finset.univ fun i => (f i - (∑ i, f i) * (1 / n)) * (f i - (∑ i, f i) * (1 / n))).trans
      (Finset.sum_congr rfl fun i _ => ?_)).symm
    rw [EReal.coe_mul, EReal.coe_sub, EReal.coe_mul]
  rw [hd]
  set S : ℝ := ∑ i, f i with hS
  set Q : ℝ := ∑ i, f i * f i with hQ
  set D : ℝ := ∑ i, (f i - S * (1 / n)) * (f i - S * (1 / n)) with hD
  have hvar : D * (1 / n) = Q * (1 / n) - S * (1 / n) * (S * (1 / n)) := real_variance f n hn hn0
  have hD0 : 0 ≤ D := Finset.sum_nonneg fun i _ => mul_self_nonneg _
  have hv0 : 0 ≤ D * (1 / n) := mul_nonneg hD0 (by positivity)
  have hmax : max (((Q : ℝ) : EReal) * ((1 / n : ℝ) : EReal) - ((S : ℝ) : EReal) * ((1 / n : ℝ) : EReal) * (((S : ℝ) : EReal) * ((1 / n : ℝ) : EReal))) 0
      = ((D * (1 / n) : ℝ) : EReal) := by
    rw [← EReal.coe_mul, ← EReal.coe_mul, ← EReal.coe_mul, ← EReal.coe_sub, ← hvar]
    exact max_eq_left (EReal.coe_nonneg.mpr hv0)
  rw [hmax, ← EReal.coe_mul D, ← EReal.coe_add, rsqrt_coe_pos (by linarith : 0 < D * (1 / n) + ε')]
  simp only [← EReal.coe_mul, ← EReal.coe_sub, ← EReal.coe_add]
  congr 2
  ring

end Cert.LibBatchNorm

end
-- ==== Proof.LibSymNorm.lean ====
/-
  General lemmas: a sum weighted on both sides by an inverse square root, on the extended reals.

  For a row of real weights a_j, real values x_j, real column scales q_j and a real row scale p,

      Σ_j ((a_j · p) · q_j) · x_j = (Σ_j a_j · (x_j · q_j)) · p:

  the row scale moves out of the sum.  On the extended reals this needs every entry to be a real number, since a factor
  distributes over a sum only then; commuting and re-associating the factors needs nothing.

  The scale in question is the guarded inverse root of a degree s: s^(-1/2) where s is positive and zero elsewhere.
  For a positive real s the power s^(-1/2) is the inverse of the square root, so the guarded power and the guarded inverse
  root are one function on real numbers, and its value is a real number.  The float word 0xBF000000 is the exponent -1/2.

  A comparison bit that selects between two values is the corresponding if-then-else.
-/
import Idealize.ShloMosaic.PureOps.Ideal.Laws
import proofs.«117452_j88124138979416_2_alg».proof.Proof.LibBatchNorm

noncomputable section

open scoped BigOperators

namespace Cert.LibSymNorm

open Idealize.ShloMosaic Cert.LibBatchNorm

/-- The float word 0xBF000000 denotes the real number -1/2. -/
theorem ofBits_neg_half : Ideal.ofBits .f32 0xBF000000#32 = ((-(1 / 2) : ℝ) : EReal) := by
  simp [Ideal.ofBits, Ideal.ieee, -EReal.coe_mul]
  norm_num

/-- For a positive real the power -1/2 is the inverse square root. -/
theorem pow_neg_half_of_pos {r : ℝ} (h : 0 < r) :
    Ideal.pow (r : EReal) ((-(1 / 2) : ℝ) : EReal) = Ideal.rsqrt (r : EReal) := by
  rw [rsqrt_coe_pos h, Ideal.pow_coe_coe]
  congr 1
  show r ^ (-(1 / 2) : ℝ) = (Real.sqrt r)⁻¹
  rw [Real.rpow_neg h.le, Real.sqrt_eq_rpow]

/-- On a real number the guarded power -1/2 is the guarded inverse square root. -/
theorem guarded_pow_eq_rsqrt {s : EReal} (hs : IsReal s) :
    (if 0 < s then Ideal.pow s ((-(1 / 2) : ℝ) : EReal) else 0) = if 0 < s then Ideal.rsqrt s else 0 := by
  obtain ⟨r, rfl⟩ := hs
  by_cases h : (0 : EReal) < (r : EReal)
  · rw [if_pos h, if_pos h, pow_neg_half_of_pos (EReal.coe_pos.mp h)]
  · rw [if_neg h, if_neg h]

/-- The guarded inverse square root of a real number is a real number. -/
theorem isReal_guarded_rsqrt {s : EReal} (hs : IsReal s) : IsReal (if 0 < s then Ideal.rsqrt s else 0) := by
  obtain ⟨r, rfl⟩ := hs
  by_cases h : (0 : EReal) < (r : EReal)
  · rw [if_pos h, rsqrt_coe_pos (EReal.coe_pos.mp h)]
    exact isReal_coe _
  · rw [if_neg h]
    exact ⟨0, EReal.coe_zero.symm⟩

/-- Selecting by the bit of the comparison "y < x" is the if-then-else on that comparison. -/
theorem select_cmp_ogt {α : Type} (x y : EReal) (a b : α) :
    Scalar.select (Ideal.cmp .ogt x y) a b = if y < x then a else b := by
  unfold Scalar.select Ideal.cmp
  by_cases h : y < x
  · simp [h]
  · simp [h]

/-- The row scale moves out of a sum of real terms. -/
theorem scaled_sum_law {ι : Type*} (s : Finset ι) (a x q : ι → EReal) (p : EReal)
    (ha : ∀ j, IsReal (a j)) (hx : ∀ j, IsReal (x j)) (hq : ∀ j, IsReal (q j)) (hp : IsReal p) :
    ∑ j ∈ s, ((a j * p) * q j) * x j = (∑ j ∈ s, a j * (x j * q j)) * p := by
  choose a' ha' using ha
  choose x' hx' using hx
  choose q' hq' using hq
  obtain ⟨p', rfl⟩ := hp
  simp only [ha', hx', hq', ← EReal.coe_mul]
  rw [← coe_sum, ← coe_sum, ← EReal.coe_mul, Finset.sum_mul]
  congr 1
  exact Finset.sum_congr rfl fun j _ => by ring

end Cert.LibSymNorm

end
-- ==== Proof.LibDegreeScale.lean ====
/-
  The inverse square root of a clamped degree is a nonnegative real number.

  A node's degree is counted by an accumulating scatter of ones into zeros: entry i of the result is the number of
  updates landing on i, a natural number whatever the start indices are.  Clamped below at one it is a real number
  at least 1, and its power -1/2 is the real number 1/sqrt(degree), which is nonnegative.  The float words are
  0x3F800000 (one), 0x00000000 (zero) and 0xBF000000 (minus one half).
-/
import proofs.«117452_j88124138979416_2_alg».proof.Proof.LibSymNorm
import proofs.«117452_j88124138979416_2_alg».proof.Proof.LibAggregateProject

noncomputable section

open scoped BigOperators

namespace Cert.LibDegreeScale

open Idealize.ShloMosaic Cert.LibBatchNorm Cert.LibSymNorm Cert.LibAggregateProject

/-- The float word 0x3F800000 denotes the real number 1. -/
theorem ofBits_one : Ideal.ofBits .f32 0x3F800000#32 = ((1 : ℝ) : EReal) := by
  simp [Ideal.ofBits, Ideal.ieee, -EReal.coe_mul]
  norm_num

/-- The coercion of reals into the extended reals commutes with the maximum. -/
theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The power -1/2 of a positive real is a nonnegative real. -/
theorem isNNReal_pow_neg_half {r : ℝ} (hr : 0 < r) :
    IsNNReal (Ideal.pow (r : EReal) (Ideal.ofBits .f32 0xBF000000#32)) := by
  rw [ofBits_neg_half, pow_neg_half_of_pos hr, rsqrt_coe_pos hr]
  exact ⟨(Real.sqrt r)⁻¹, inv_nonneg.2 (Real.sqrt_nonneg r), rfl⟩

/-- A scatter of ones into zeros counts, at every entry, the updates landing there. -/
theorem scatter_ones_count {s si su : Shape} (d : ScatterDims s si su) {w : Nat} (zero : s.Idx → EReal) (idx : IVec si w)
    (ones : su.Idx → EReal) (h0 : ∀ i, zero i = Ideal.ofBits .f32 0x00000000#32)
    (hu : ∀ j, ones j = Ideal.ofBits .f32 0x3F800000#32) (i : s.Idx) :
    ∃ c : ℕ, Ideal.hostScatterAdd d zero idx ones i = ((c : ℝ) : EReal) := by
  classical
  refine ⟨(Finset.univ.filter fun j => d.resultIdx? j idx = some i).card, ?_⟩
  unfold Ideal.hostScatterAdd
  rw [h0, Ideal.ofBits_zero_f32, zero_add, Finset.sum_congr rfl fun j _ => (hu j).trans ofBits_one, ← coe_sum]
  simp

/-- THE FACT: the clamped degree to the power -1/2 is a nonnegative real, at every entry and for any start indices. -/
theorem isNNReal_degree_scale {s si su : Shape} (d : ScatterDims s si su) {w : Nat} (one zero : s.Idx → EReal) (idx : IVec si w)
    (ones : su.Idx → EReal) (p : s.Idx → EReal) (h1 : ∀ i, one i = Ideal.ofBits .f32 0x3F800000#32)
    (h0 : ∀ i, zero i = Ideal.ofBits .f32 0x00000000#32) (hu : ∀ j, ones j = Ideal.ofBits .f32 0x3F800000#32)
    (hp : ∀ i, p i = Ideal.ofBits .f32 0xBF000000#32) (i : s.Idx) :
    IsNNReal (Ideal.pow (max (one i) (Ideal.hostScatterAdd d zero idx ones i)) (p i)) := by
  obtain ⟨c, hc⟩ := scatter_ones_count d zero idx ones h0 hu i
  rw [h1, hp, hc, ofBits_one, coe_max]
  exact isNNReal_pow_neg_half (lt_of_lt_of_le one_pos (le_max_left _ _))

end Cert.LibDegreeScale

end
-- ==== Proof.RefLayer.lean ====
/-
  The reference's two layers read at an index.

  With so = deg_out^(-1/2) and si = deg_in^(-1/2) (each a column of nonnegative reals, whatever the edge lists hold),
  x = the first aggregation Σ_{e → r} feat (src e) · so (src e):

  * the hidden features are  h r k = max (Σ_j (x r j · si r) · w1 j k + b1 k) 0, which is the shared row function
    (its products commuted);
  * the array the final mean is taken of is, at node n,
        Σ_k ((Σ_{e → n} h (src e) k · so (src e)) · si n) · w2 k + b2,
    the aggregation written with the accumulating scatter and the clamped gather of the edge lists.
-/
import proofs.«117452_j88124138979416_2_alg».proof.Proof.Gen.ReferenceIdeal.Read
import proofs.«117452_j88124138979416_2_alg».proof.Proof.LibAffine
import proofs.«117452_j88124138979416_2_alg».proof.Proof.LibColumnRow
import proofs.«117452_j88124138979416_2_alg».proof.Proof.LibPlainDot
import proofs.«117452_j88124138979416_2_alg».proof.Proof.LibBroadcastRead
import proofs.«117452_j88124138979416_2_alg».proof.Proof.LibGraphLayer
import proofs.«117452_j88124138979416_2_alg».proof.Proof.LibDegreeScale

set_option maxRecDepth 16384

noncomputable section

open scoped BigOperators

namespace Cert.ReferenceIdeal.RefValue

open Idealize.ShloMosaic Idealize.ShloMosaic.ValueIdx Idealize.ShloMosaic.SegmentSum
open Cert.ReferenceIdeal Cert.ReferenceIdeal.Read Cert.ReferenceIdeal.Facts₀
open Cert.LibAffine Cert.LibColumnRow Cert.LibPlainDot Cert.LibBroadcastRead Cert.LibGraphLayer
  Cert.LibAggregateProject Cert.LibDegreeScale

/-! ## The arrays the second layer is built from -/

/-- The first aggregation: x r j = Σ over the edges landing on r of feat (src e) j · so (src e). -/
abbrev aggIn (x0 : S50000x512.Idx → EReal) (x1 x2 : S400000.Idx → BitVec 32) : S50000x512.Idx → EReal :=
  val_main_v23 (F := Ideal) x0 x1 x2
/-- The target scale deg_in^(-1/2) as a column. -/
abbrev siCol (x2 : S400000.Idx → BitVec 32) : S50000x1.Idx → EReal := val_main_v26 (F := Ideal) x2
/-- The source scale deg_out^(-1/2) as a column. -/
abbrev soCol (x1 : S400000.Idx → BitVec 32) : S50000x1.Idx → EReal := val_main_v11 (F := Ideal) x1
/-- The first bias as a row. -/
abbrev b1Row (x4 : S512.Idx → EReal) : S1x512.Idx → EReal := val_main_v30 (F := Ideal) x4

/-! ## The scales -/

/-- A rank-0 constant broadcast to any shape reads the constant's word everywhere. -/
theorem splat_apply {t : Shape} (hd : S_.BroadcastsInDim t ![]) (b : BitVec 32) (j : t.Idx) :
    broadcastInDim t ![] hd (constant (F := Ideal) S_ .f32 b) j = Ideal.ofBits .f32 b :=
  broadcastInDim_scalar_apply hd _ j

/-- The second layer recomputes the same two scale columns. -/
theorem si_again (x2 : S400000.Idx → BitVec 32) : val_main_v60 (F := Ideal) x2 = siCol x2 := rfl
theorem so_again (x1 : S400000.Idx → BitVec 32) : val_main_v45 (F := Ideal) x1 = soCol x1 := rfl

/-! ## The hidden features -/

/-- The first layer's output at (r, k) is the shared hidden-row function. -/
theorem hidden_apply (x0 : S50000x512.Idx → EReal) (x1 x2 : S400000.Idx → BitVec 32) (x3 : S512x512.Idx → EReal)
    (x4 : S512.Idx → EReal) (r : Fin 50000) (k : Fin 512) :
    val_main_v33 (F := Ideal) x0 x1 x2 x3 x4 (ix2 r k)
      = hiddenAt (aggIn x0 x1 x2) (siCol x2) x3 (b1Row x4) r k := by
  unfold hiddenAt
  show max (val_main_v29 (F := Ideal) x0 x1 x2 x3 (ix2 r k) + val_main_v31 (F := Ideal) x4 (ix2 r k))
      (val_main_call2_v0 (F := Ideal) (ix2 r k)) = _
  refine congrArg₂ max (congrArg₂ (fun u v : EReal => u + v) ?_ ?_) ?_
  · refine (hostDot_ix2 dot_S50000x512_S512x512_S50000x512_1_0_0_1_n_n (contr_rank _ rfl) (contr_size _ rfl)
      (lhs_row _ rfl rfl) (lhs_col _ rfl) (rhs_row _ rfl rfl) (rhs_col _ rfl rfl rfl rfl) none _ _ r k).trans ?_
    refine Finset.sum_congr rfl fun j _ => ?_
    refine congrArg₂ (fun u v : EReal => u * v) ?_ rfl
    show val_main_v23 (F := Ideal) x0 x1 x2 (ix2 r j) * val_main_v27 (F := Ideal) x2 (ix2 r j) = _
    rw [mul_comm]
    exact congrArg₂ (fun u v : EReal => u * v) (broadcastInDim_a1_ab_apply bcast_S50000x1_S50000x512_0_1 _ r j) rfl
  · exact broadcastInDim_1n_an_apply bcast_S1x512_S50000x512_0_1 _ r k
  · exact (splat_apply bcast_S_S50000x512 _ _).trans Ideal.ofBits_zero_f32

/-! ## The array under the final mean -/

/-- The second aggregation's operand: every node's hidden row scaled by its source scale. -/
theorem scaled_hidden_eq (x0 : S50000x512.Idx → EReal) (x1 x2 : S400000.Idx → BitVec 32) (x3 : S512x512.Idx → EReal)
    (x4 : S512.Idx → EReal) :
    val_main_v47 (F := Ideal) x0 x1 x2 x3 x4
      = fun v => hiddenAt (aggIn x0 x1 x2) (siCol x2) x3 (b1Row x4) (v 0) (v 1)
          * soCol x1 (ix2 (v 0) (0 : Fin 1)) := by
  funext v
  obtain ⟨r, k, rfl⟩ : ∃ (r : Fin 50000) (k : Fin 512), v = ix2 r k := ⟨v 0, v 1, eq_ix2 v⟩
  show val_main_v33 (F := Ideal) x0 x1 x2 x3 x4 (ix2 r k) * val_main_v46 (F := Ideal) x1 (ix2 r k) = _
  rw [hidden_apply]
  exact congrArg₂ (fun u v : EReal => u * v) rfl (broadcastInDim_a1_ab_apply bcast_S50000x1_S50000x512_0_1 _ r k)

/-- The array the final mean is taken of, at node n: aggregate, scale by si n, project through w2, add b2. -/
theorem premean_apply (x0 : S50000x512.Idx → EReal) (x1 x2 : S400000.Idx → BitVec 32) (x3 : S512x512.Idx → EReal)
    (x4 : S512.Idx → EReal) (x5 : S512x1.Idx → EReal) (x6 : S1.Idx → EReal) (n : Fin 50000) :
    val_main_v66 (F := Ideal) x0 x1 x2 x3 x4 x5 x6 (ix2 n (0 : Fin 1))
      = (∑ k : Fin 512, (Ideal.hostScatterAdd (rowScatterDims 50000 400000 512 Facts₀.scatter_S50000x512_S400000x1_S400000x512_1_0_0_1_wf)
            (fun _ => 0) (val_main_v56 (F := Ideal) x2)
            (Host.gather (rowGatherDims 50000 400000 512 Facts₀.gather_S50000x512_S400000x1_S400000x512_1_0_n_n_0_1_1512_wf)
              (fun v => hiddenAt (aggIn x0 x1 x2) (siCol x2) x3 (b1Row x4) (v 0) (v 1)
                * soCol x1 (ix2 (v 0) (0 : Fin 1))) (val_main_v53 (F := Ideal) x1)) (ix2 n k)
          * siCol x2 (ix2 n (0 : Fin 1))) * x5 (ix2 k (0 : Fin 1)))
        + x6 (ix1 (0 : Fin 1)) := by
  show val_main_v63 (F := Ideal) x0 x1 x2 x3 x4 x5 (ix2 n (0 : Fin 1)) + val_main_v65 (F := Ideal) x6 (ix2 n (0 : Fin 1)) = _
  refine congrArg₂ (fun u v : EReal => u + v) ?_ ?_
  · refine (hostDot_ix2 dot_S50000x512_S512x1_S50000x1_1_0_0_1_n_n (contr_rank _ rfl) (contr_size _ rfl)
      (lhs_row _ rfl rfl) (lhs_col _ rfl) (rhs_row _ rfl rfl) (rhs_col _ rfl rfl rfl rfl) none _ _ n (0 : Fin 1)).trans ?_
    refine Finset.sum_congr rfl fun k _ => ?_
    refine congrArg₂ (fun u v : EReal => u * v) ?_ rfl
    show val_main_v57 (F := Ideal) x0 x1 x2 x3 x4 (ix2 n k) * val_main_v61 (F := Ideal) x2 (ix2 n k) = _
    refine congrArg₂ (fun u v : EReal => u * v) ?_ ((broadcastInDim_a1_ab_apply bcast_S50000x1_S50000x512_0_1 _ n k).trans (congrFun (si_again x2) _))
    show Ideal.hostScatterAdd scatter_S50000x512_S400000x1_S400000x512_1_0_0_1 (val_main_v55 (F := Ideal)) (val_main_v56 (F := Ideal) x2)
        (Host.gather gather_S50000x512_S400000x1_S400000x512_1_0_n_n_0_1_1512 (val_main_v47 (F := Ideal) x0 x1 x2 x3 x4) (val_main_v53 (F := Ideal) x1)) (ix2 n k) = _
    rw [scaled_hidden_eq, show (val_main_v55 (F := Ideal)) = fun _ => (0 : EReal) from
      funext fun j => (splat_apply bcast_S_S50000x512 _ j).trans Ideal.ofBits_zero_f32]
    rfl
  · exact (broadcastInDim_1n_an_apply bcast_S1x1_S50000x1_0_1 _ n (0 : Fin 1)).trans
      (broadcastInDim_n_1n_apply bcast_S1_S1x1_1 x6 (0 : Fin 1) (0 : Fin 1))

end Cert.ReferenceIdeal.RefValue

end
-- ==== Proof.RefScales.lean ====
/-
  The reference's two scale columns hold nonnegative reals.

  Each is (max 1 (number of edges whose source, or target, is the node))^(-1/2): the count is a natural number
  whatever the edge lists hold, so the clamped degree is a real number at least 1 and its power -1/2 a nonnegative real.
-/
import proofs.«117452_j88124138979416_2_alg».proof.Proof.RefLayer

set_option maxRecDepth 16384

noncomputable section

namespace Cert.ReferenceIdeal.RefValue

open Idealize.ShloMosaic Idealize.ShloMosaic.ValueIdx
open Cert.ReferenceIdeal Cert.ReferenceIdeal.Read Cert.ReferenceIdeal.Facts₀
open Cert.LibAggregateProject Cert.LibDegreeScale

theorem one_src (i : S50000.Idx) : val_main_call0_v1 (F := Ideal) i = Ideal.ofBits .f32 0x3F800000#32 :=
  splat_apply bcast_S_S50000 _ i
theorem one_dst (i : S50000.Idx) : val_main_call1_v1 (F := Ideal) i = Ideal.ofBits .f32 0x3F800000#32 :=
  splat_apply bcast_S_S50000 _ i
theorem zero_src (i : S50000.Idx) : val_main_v1 (F := Ideal) i = Ideal.ofBits .f32 0x00000000#32 :=
  splat_apply bcast_S_S50000 _ i
theorem zero_dst (i : S50000.Idx) : val_main_v5 (F := Ideal) i = Ideal.ofBits .f32 0x00000000#32 :=
  splat_apply bcast_S_S50000 _ i
theorem ones_edges (j : S400000.Idx) : val_main_v0 (F := Ideal) j = Ideal.ofBits .f32 0x3F800000#32 :=
  splat_apply bcast_S_S400000 _ j
theorem half_src (i : S50000.Idx) : val_main_v9 (F := Ideal) i = Ideal.ofBits .f32 0xBF000000#32 :=
  splat_apply bcast_S_S50000 _ i
theorem half_dst (i : S50000.Idx) : val_main_v24 (F := Ideal) i = Ideal.ofBits .f32 0xBF000000#32 :=
  splat_apply bcast_S_S50000 _ i

/-- The host's accumulating scatter on the extended reals is the sum-over-landing-updates function. -/
theorem scatterAdd_ideal {s si su : Shape} (d : ScatterDims s si su) {w : Nat} (x : s.Idx → EReal) (idx : IVec si w)
    (u : su.Idx → EReal) :
    Host.scatterAdd (F := Ideal) (φ := .f32) d x idx u = Ideal.hostScatterAdd d x idx u := rfl

/-- The target scale is a nonnegative real at every node. -/
theorem si_nnreal (x2 : S400000.Idx → BitVec 32) (v : S50000x1.Idx) : IsNNReal (siCol x2 v) := by
  show IsNNReal (val_main_v26 (F := Ideal) x2 v)
  rw [val_main_v26_apply, val_main_v25_apply, val_main_v8_apply, Ideal.hostPowf_def, Ideal.maximumf_def]
  unfold val_main_v7
  rw [scatterAdd_ideal]
  exact isNNReal_degree_scale _ _ _ _ _ _ one_dst zero_dst ones_edges half_dst _

/-- The source scale is a nonnegative real at every node. -/
theorem so_nnreal (x1 : S400000.Idx → BitVec 32) (v : S50000x1.Idx) : IsNNReal (soCol x1 v) := by
  show IsNNReal (val_main_v11 (F := Ideal) x1 v)
  rw [val_main_v11_apply, val_main_v10_apply, val_main_v4_apply, Ideal.hostPowf_def, Ideal.maximumf_def]
  unfold val_main_v3
  rw [scatterAdd_ideal]
  exact isNNReal_degree_scale _ _ _ _ _ _ one_src zero_src ones_edges half_src _

end Cert.ReferenceIdeal.RefValue

end
-- ==== Proof.BridgeArrays.lean ====
/-
  One array, two spellings.

  The kernel's program and the reference build the two scale columns, the first aggregation and the bias row from the
  same operations of the same arguments; the only difference is that the kernel's program lays a vector out as a
  column (or a row) by a reshape where the reference broadcasts it along the new unit axis, which gives the same array.
-/
import proofs.«117452_j88124138979416_2_alg».proof.Proof.RefLayer
import proofs.«117452_j88124138979416_2_alg».proof.Proof.KernelHostTerms

set_option maxRecDepth 16384

noncomputable section

namespace Cert.Bridge

open Idealize.ShloMosaic Idealize.ShloMosaic.ValueIdx
open Cert.LibColumnRow Cert.KernelIdeal.HostTerms Cert.ReferenceIdeal.RefValue

/-- The scale vector of an index list is the same vector in both programs (the target list's, first layer). -/
theorem scaleVec_dst (x2 : Cert.KernelIdeal.S400000.Idx → BitVec 32) :
    scaleVec x2 = Cert.ReferenceIdeal.Read.val_main_v25 (F := Ideal) x2 := rfl

/-- The scale vector of the source list. -/
theorem scaleVec_src (x1 : Cert.KernelIdeal.S400000.Idx → BitVec 32) :
    scaleVec x1 = Cert.ReferenceIdeal.Read.val_main_v10 (F := Ideal) x1 := rfl

/-- The kernel's target scale column (a reshape of the scale vector) is the reference's (a broadcast of it). -/
theorem scaleCol_dst (x2 : Cert.KernelIdeal.S400000.Idx → BitVec 32) : scaleCol x2 = siCol x2 := by
  unfold scaleCol
  rw [shapeCast_col_eq_broadcastInDim (scaleVec x2) Cert.KernelIdeal.Facts₀.shapeCasts_S50000_S50000x1
    Cert.ReferenceIdeal.Facts₀.bcast_S50000_S50000x1_0, scaleVec_dst]
  rfl

/-- The source scale column likewise. -/
theorem scaleCol_src (x1 : Cert.KernelIdeal.S400000.Idx → BitVec 32) : scaleCol x1 = soCol x1 := by
  unfold scaleCol
  rw [shapeCast_col_eq_broadcastInDim (scaleVec x1) Cert.KernelIdeal.Facts₀.shapeCasts_S50000_S50000x1
    Cert.ReferenceIdeal.Facts₀.bcast_S50000_S50000x1_0, scaleVec_src]
  rfl

/-- The bias row: a reshape in the kernel's program, a broadcast in the reference's. -/
theorem biasRow_eq (x4 : Cert.KernelIdeal.S512.Idx → EReal) : biasRow x4 = b1Row x4 := by
  unfold biasRow
  rw [shapeCast_row_eq_broadcastInDim x4 Cert.KernelIdeal.Facts₀.shapeCasts_S512_S1x512
    Cert.ReferenceIdeal.Facts₀.bcast_S512_S1x512_1]
  rfl

/-- The edge lists as columns of start indices are the same arrays in both programs. -/
theorem dstCol_eq (x2 : Cert.KernelIdeal.S400000.Idx → BitVec 32) :
    dstCol x2 = Cert.ReferenceIdeal.Read.val_main_v56 (F := Ideal) x2 := rfl
theorem srcCol_eq (x1 : Cert.KernelIdeal.S400000.Idx → BitVec 32) :
    srcCol x1 = Cert.ReferenceIdeal.Read.val_main_v53 (F := Ideal) x1 := rfl

/-- The first aggregation is the same array in both programs. -/
theorem aggregated_eq (x0 : Cert.KernelIdeal.S50000x512.Idx → EReal) (x1 x2 : Cert.KernelIdeal.S400000.Idx → BitVec 32) :
    aggregated x0 x1 x2 = aggIn x0 x1 x2 := by
  unfold aggregated
  rw [scaleCol_src]
  rfl

end Cert.Bridge

end
-- ==== Proof.Bridge.lean ====
/-
  The two programs compute one column under the final mean.

  Both build the same two scale columns si, so, the same first aggregation x and the same hidden rows
  h r k = max (Σ_j (si r · x r j) · w1 j k + b1 k) 0.  For the second layer the reference aggregates the rows
  h (src e) · so (src e) at dst e, scales by si and multiplies into w2; the kernel multiplies each node's row into w2
  first, scales by so, aggregates the resulting numbers and scales by si.  The scales are nonnegative reals and the
  hidden rows nonnegative, so the two agree at every node (aggregate-then-project = project-then-aggregate), whatever
  the inputs hold.
-/
import proofs.«117452_j88124138979416_2_alg».proof.Proof.RefScales
import proofs.«117452_j88124138979416_2_alg».proof.Proof.BridgeArrays

set_option maxRecDepth 16384

noncomputable section

open scoped BigOperators

namespace Cert.Bridge

open Idealize.ShloMosaic Idealize.ShloMosaic.ValueIdx Idealize.ShloMosaic.SegmentSum
open Cert.LibAffine Cert.LibColumnRow Cert.LibBroadcastRead Cert.LibGraphLayer Cert.LibAggregateProject
open Cert.KernelIdeal.HostTerms Cert.ReferenceIdeal.RefValue

/-- The kernel program's one-column scatter and gather records are the row scatter and row gather of width 1. -/
theorem scatterCol_eq : Cert.KernelIdeal.scatter_S50000x1_S400000x1_S400000x1_1_0_0_1
    = rowScatterDims 50000 400000 1 Cert.KernelIdeal.Facts₀.scatter_S50000x1_S400000x1_S400000x1_1_0_0_1_wf := rfl
theorem gatherCol_eq : Cert.KernelIdeal.gather_S50000x1_S400000x1_S400000x1_1_0_n_n_0_1_11
    = rowGatherDims 50000 400000 1 Cert.KernelIdeal.Facts₀.gather_S50000x1_S400000x1_S400000x1_1_0_n_n_0_1_11_wf := rfl

/-- The zero column the kernel's second aggregation starts from. -/
theorem zeroCol_eq : (broadcastInDim Cert.KernelIdeal.S50000x1 ![] Cert.KernelIdeal.Facts₀.bcast_S_S50000x1
    (constant (F := Ideal) Cert.KernelIdeal.S_ .f32 0x00000000#32) : Cert.KernelIdeal.S50000x1.Idx → EReal) = fun _ => 0 :=
  funext fun j => (broadcastInDim_scalar_apply _ _ j).trans Ideal.ofBits_zero_f32

/-- The kernel's column under the mean, at node n, from any scale column si and region output v. -/
theorem premean_kernel_apply (x1 x2 : Cert.KernelIdeal.S400000.Idx → BitVec 32) (x6 : Cert.KernelIdeal.S1.Idx → EReal)
    (si v : Cert.KernelIdeal.S50000x1.Idx → EReal) (n : Fin 50000) :
    premean x1 x2 x6 si v (ix2 n (0 : Fin 1))
      = si (ix2 n (0 : Fin 1)) * Ideal.hostScatterAdd
          (rowScatterDims 50000 400000 1 Cert.KernelIdeal.Facts₀.scatter_S50000x1_S400000x1_S400000x1_1_0_0_1_wf)
          (fun _ => 0) (dstCol x2)
          (Host.gather (rowGatherDims 50000 400000 1 Cert.KernelIdeal.Facts₀.gather_S50000x1_S400000x1_S400000x1_1_0_n_n_0_1_11_wf)
            v (srcCol x1)) (ix2 n (0 : Fin 1))
        + x6 (ix1 (0 : Fin 1)) := by
  have hb : broadcastInDim Cert.KernelIdeal.S50000x1 ![0, 1] Cert.KernelIdeal.Facts₀.bcast_S1x1_S50000x1_0_1
      (shapeCast Cert.KernelIdeal.S1x1 x6 Cert.KernelIdeal.Facts₀.shapeCasts_S1_S1x1) (ix2 n (0 : Fin 1)) = x6 (ix1 (0 : Fin 1)) :=
    (broadcastInDim_1n_an_apply _ _ n (0 : Fin 1)).trans (shapeCast_a_a1_apply x6 _ (0 : Fin 1) (0 : Fin 1))
  unfold premean
  rw [addf_apply, mulf_apply, hb, zeroCol_eq, scatterCol_eq, gatherCol_eq, scatterAdd_ideal]

/-- A node's projected value, spelled with the hidden-row function. -/
theorem projectedCol_eq {a c d : ℕ} (x : (⟨2, ![a, c]⟩ : Shape).Idx → EReal) (si so : (⟨2, ![a, 1]⟩ : Shape).Idx → EReal)
    (w1 : (⟨2, ![c, d]⟩ : Shape).Idx → EReal) (b1 : (⟨2, ![1, d]⟩ : Shape).Idx → EReal)
    (w2 : (⟨2, ![d, 1]⟩ : Shape).Idx → EReal) :
    projectedCol x si so w1 b1 w2
      = fun v => (∑ k : Fin d, (fun u : (⟨2, ![a, d]⟩ : Shape).Idx => hiddenAt x si w1 b1 (u 0) (u 1)) (ix2 (v 0) k)
          * w2 (ix2 k (0 : Fin 1))) * so (ix2 (v 0) (0 : Fin 1)) := rfl

/-- THE LAW at these arrays: the reference's aggregate-then-project sum is the kernel's project-then-aggregate one. -/
theorem second_layer_eq (x0 : Cert.KernelIdeal.S50000x512.Idx → EReal) (x1 x2 : Cert.KernelIdeal.S400000.Idx → BitVec 32)
    (x3 : Cert.KernelIdeal.S512x512.Idx → EReal) (x4 : Cert.KernelIdeal.S512.Idx → EReal)
    (x5 : Cert.KernelIdeal.S512x1.Idx → EReal) (n : Fin 50000) :
    (∑ k : Fin 512, (Ideal.hostScatterAdd (rowScatterDims 50000 400000 512 Cert.ReferenceIdeal.Facts₀.scatter_S50000x512_S400000x1_S400000x512_1_0_0_1_wf)
            (fun _ => 0) (Cert.ReferenceIdeal.Read.val_main_v56 (F := Ideal) x2)
            (Host.gather (rowGatherDims 50000 400000 512 Cert.ReferenceIdeal.Facts₀.gather_S50000x512_S400000x1_S400000x512_1_0_n_n_0_1_1512_wf)
              (fun v : (⟨2, ![50000, 512]⟩ : Shape).Idx => hiddenAt (aggIn x0 x1 x2) (siCol x2) x3 (b1Row x4) (v 0) (v 1)
                * soCol x1 (ix2 (v 0) (0 : Fin 1))) (Cert.ReferenceIdeal.Read.val_main_v53 (F := Ideal) x1)) (ix2 n k)
          * siCol x2 (ix2 n (0 : Fin 1))) * x5 (ix2 k (0 : Fin 1)))
      = siCol x2 (ix2 n (0 : Fin 1)) * Ideal.hostScatterAdd
          (rowScatterDims 50000 400000 1 Cert.KernelIdeal.Facts₀.scatter_S50000x1_S400000x1_S400000x1_1_0_0_1_wf)
          (fun _ => 0) (Cert.ReferenceIdeal.Read.val_main_v56 (F := Ideal) x2)
          (Host.gather (rowGatherDims 50000 400000 1 Cert.KernelIdeal.Facts₀.gather_S50000x1_S400000x1_S400000x1_1_0_n_n_0_1_11_wf)
            (projectedCol (aggIn x0 x1 x2) (siCol x2) (soCol x1) x3 (b1Row x4) x5)
            (Cert.ReferenceIdeal.Read.val_main_v53 (F := Ideal) x1)) (ix2 n (0 : Fin 1)) := by
  rw [projectedCol_eq]
  exact aggregate_project_rows (by norm_num : 0 < 50000) _ _ _ _
    (fun v : (⟨2, ![50000, 512]⟩ : Shape).Idx => hiddenAt (aggIn x0 x1 x2) (siCol x2) x3 (b1Row x4) (v 0) (v 1))
    (fun v => hiddenAt_nonneg _ _ _ _ _ _)
    (siCol x2) (soCol x1) (si_nnreal x2) (so_nnreal x1) x5 _ _ n

/-- The kernel's column equals the reference's, entry by entry. -/
theorem premean_eq (x0 : Cert.KernelIdeal.S50000x512.Idx → EReal) (x1 x2 : Cert.KernelIdeal.S400000.Idx → BitVec 32)
    (x3 : Cert.KernelIdeal.S512x512.Idx → EReal) (x4 : Cert.KernelIdeal.S512.Idx → EReal)
    (x5 : Cert.KernelIdeal.S512x1.Idx → EReal) (x6 : Cert.KernelIdeal.S1.Idx → EReal) :
    premean x1 x2 x6 (siCol x2) (projectedCol (aggIn x0 x1 x2) (siCol x2) (soCol x1) x3 (b1Row x4) x5)
      = Cert.ReferenceIdeal.Read.val_main_v66 (F := Ideal) x0 x1 x2 x3 x4 x5 x6 := by
  funext i
  obtain ⟨n, q, rfl⟩ : ∃ (n : Fin 50000) (q : Fin 1), i = ix2 n q := ⟨i 0, i 1, eq_ix2 i⟩
  obtain rfl : q = 0 := Subsingleton.elim _ _
  rw [premean_kernel_apply, premean_apply, second_layer_eq, dstCol_eq, srcCol_eq]

end Cert.Bridge

end
-- ==== Proof.lean ====
/-
  A two-layer graph convolution with a mean read-out: the kernel program against its reference, on the extended reals.

  Both programs compute  mean_n ( si n · Σ_{e → n} (…) + b2 )  from node features, two edge lists and two dense layers,
  with si = deg_in^(-1/2), so = deg_out^(-1/2) (degrees clamped at 1) and the hidden rows
  h r = relu ((si r · Σ_{e → r} feat (src e) · so (src e)) · W1 + b1).  They differ in the second layer only:

    reference   Σ_k ((Σ_{e → n} h (src e) k · so (src e)) · si n) · W2 k      (aggregate 512-wide rows, then project)
    kernel      si n · Σ_{e → n} ((Σ_k h (src e) k · W2 k) · so (src e))      (project each node to one number, then aggregate)

  On the extended reals a factor distributes over a sum only under conditions; here the scales are nonnegative real
  numbers (the inverse root of a count clamped at 1, whatever the edge lists hold) and every hidden entry is a maximum
  with zero, hence nonnegative, which is all the exchange of the two sums needs: the equality holds for every input, and
  the finiteness of the float inputs is not used.  Out-of-range edge entries are read alike by both programs (a gather
  clamps its start index, an accumulating scatter drops an update that lands outside).

  The kernel's frames are the generated ones; the reference's frame is its generated run.  The kernel's value is read
  off its generated frame run (the blocks the 25 grid points write back tile the output column) and through the host
  lines around the region; the reference's value is its generated run read stage by stage.
-/
import proofs.«117452_j88124138979416_2_alg».proof.Defs
import proofs.«117452_j88124138979416_2_alg».proof.Proof.Gen.Kernel
import proofs.«117452_j88124138979416_2_alg».proof.Proof.Gen.Kernel.Frame
import proofs.«117452_j88124138979416_2_alg».proof.Proof.Gen.KernelIdeal
import proofs.«117452_j88124138979416_2_alg».proof.Proof.Gen.KernelIdeal.Frame
import proofs.«117452_j88124138979416_2_alg».proof.Proof.Gen.ReferenceIdeal
import proofs.«117452_j88124138979416_2_alg».proof.Proof.Gen.Pre_finite_inputs
import proofs.«117452_j88124138979416_2_alg».proof.Proof.Gen.ReferenceIdeal.Run
import proofs.«117452_j88124138979416_2_alg».proof.Proof.Gen.ReferenceIdeal.Read
import proofs.«117452_j88124138979416_2_alg».proof.Proof.KernelRun
import proofs.«117452_j88124138979416_2_alg».proof.Proof.Bridge

set_option maxRecDepth 16384

noncomputable section

namespace Cert.Proof

open Idealize.ShloMosaic Idealize.SL.Sem

/-- The kernel's result function of the arguments is the reference's: the same scales, aggregation and bias row under two
    spellings, the column under the mean equal entry by entry, and one mean. -/
theorem result_eq (x0 : Cert.KernelIdeal.S50000x512.Idx → EReal) (x1 x2 : Cert.KernelIdeal.S400000.Idx → BitVec 32)
    (x3 : Cert.KernelIdeal.S512x512.Idx → EReal) (x4 : Cert.KernelIdeal.S512.Idx → EReal)
    (x5 : Cert.KernelIdeal.S512x1.Idx → EReal) (x6 : Cert.KernelIdeal.S1.Idx → EReal) :
    Cert.ReferenceIdeal.Read.val_main_v70 (F := Ideal) x0 x1 x2 x3 x4 x5 x6
      = Cert.KernelIdeal.KernelValue.result x0 x1 x2 x3 x4 x5 x6 := by
  unfold Cert.KernelIdeal.KernelValue.result
  rw [Cert.Bridge.scaleCol_dst, Cert.Bridge.scaleCol_src, Cert.Bridge.biasRow_eq, Cert.Bridge.aggregated_eq,
    Cert.Bridge.premean_eq]
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the same result: the kernel's run names it, the reference's run read stage by stage
    is the same function of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, (hagree c).1, (hagree c).2.1, (hagree c).2.2.1, (hagree c).2.2.2.1,
    (hagree c).2.2.2.2.1, (hagree c).2.2.2.2.2.1, (hagree c).2.2.2.2.2.2]
  exact result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
